-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S2048 .f32) (main_arg10 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x1024 .f32) (main_arg5 : FVec F S1024 .f32) (main_arg6 : FVec F S2048 .f32) (main_arg7 : FVec F S2048 .f32) (main_arg8 : FVec F S2048 .f32) (main_arg9 : FVec F S2048 .f32) (main_arg10 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S2048x2048 .f32) (main_arg3 : FVec F S2048 .f32) (main_arg4 : FVec F S2048x1024 .f32) (main_arg5 : FVec F S1024 .f32) (main_arg6 : FVec F S2048 .f32) (main_arg7 : FVec F S2048 .f32) (main_arg8 : FVec F S2048 .f32) (main_arg9 : FVec F S2048 .f32) (main_arg10 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩
abbrev S1x1024 : Shape := ⟨2, ![1, 1024]⟩
abbrev S1024x2048 : Shape := ⟨2, ![1024, 2048]⟩
abbrev S128x2048 : Shape := ⟨2, ![128, 2048]⟩
abbrev S1x2048 : Shape := ⟨2, ![1, 2048]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .bf16⟩
  | .hbm, ⟨12, _⟩ => ⟨S2048x1024, .bf16⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S2048, .f32⟩
  | .local _ .vmem, ⟨6, _⟩ => ⟨S2048x1024, .bf16⟩
  | .local _ .vmem, ⟨7, _⟩ => ⟨S1024, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S2048, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S2048_S2048_0 : ∀ a, (![0] : Fin 1 → Nat) a + S2048.size a ≤ S2048.size a
  h_S2048 : 0 < S2048.numel
  inb_S1024_S1024_0 : ∀ a, (![0] : Fin 1 → Nat) a + S1024.size a ≤ S1024.size a
  h_S1024 : 0 < S1024.numel
  inb_S2048_S1024_0 : ∀ a, (![0] : Fin 1 → Nat) a + S1024.size a ≤ S2048.size a
  inb_S2048_S1024_1024 : ∀ a, (![1024] : Fin 1 → Nat) a + S1024.size a ≤ S2048.size a
  inb_S256x1024_S128x1024_0_0 : ∀ a, (![0, 0] : Fin 2 → Nat) a + S128x1024.size a ≤ S256x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  shapeCasts_S1024_S1x1024 : S1024.ShapeCasts S1x1024
  broadcasts_S1x1024_S128x1024 : S1x1024.Broadcasts S128x1024
  inb_S2048x2048_S1024x2048_0_0 : ∀ a, (![0, 0] : Fin 2 → Nat) a + S1024x2048.size a ≤ S2048x2048.size a
  h_S1024x2048 : 0 < S1024x2048.numel
  shapeCasts_S1024x2048_S1024x2048 : S1024x2048.ShapeCasts S1024x2048
  inb_S2048x2048_S1024x2048_1024_0 : ∀ a, (![1024, 0] : Fin 2 → Nat) a + S1024x2048.size a ≤ S2048x2048.size a
  shapeCasts_S2048_S1x2048 : S2048.ShapeCasts S1x2048
  broadcasts_S1x2048_S128x2048 : S1x2048.Broadcasts S128x2048
  slices_S128x2048_o0_0_S128x1024 : S128x2048.Slices ![0, 0] S128x1024
  slices_S128x2048_o0_1024_S128x1024 : S128x2048.Slices ![0, 1024] S128x1024
  inb_S2048x1024_S1024x1024_0_0 : ∀ a, (![0, 0] : Fin 2 → Nat) a + S1024x1024.size a ≤ S2048x1024.size a
  h_S1024x1024 : 0 < S1024x1024.numel
  shapeCasts_S1024x1024_S1024x1024 : S1024x1024.ShapeCasts S1024x1024
  inb_S2048x1024_S1024x1024_1024_0 : ∀ a, (![1024, 0] : Fin 2 → Nat) a + S1024x1024.size a ≤ S2048x1024.size a
  inb_S256x1024_S128x1024_128_0 : ∀ a, (![128, 0] : Fin 2 → Nat) a + S128x1024.size a ≤ S256x1024.size a
  dot_S128x1024_S1024x2048_S128x2048_1_0_0_1_n_n_wf : DotDims.WF S128x1024 S1024x2048 S128x2048 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S2048.size a
  hwx0_10 : ∀ i : grid0.Coords, EltTy.bits .f32 = 32 ∨ (Rect.block (s := S2048) S2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x2048, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x2048, .f32⟩
  | .hbm, ⟨84, _⟩ => ⟨S16384x2048, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x2048, .f32⟩
  | .hbm, ⟨90, _⟩ => ⟨S16384x2048, .f32⟩
  | .hbm, ⟨91, _⟩ => ⟨S1x2048, .f32⟩
  | .hbm, ⟨92, _⟩ => ⟨S16384x2048, .f32⟩
  | .hbm, ⟨93, _⟩ => ⟨S16384x2048, .f32⟩
  | .hbm, ⟨94, _⟩ => ⟨S1x2048, .f32⟩
  | .hbm, ⟨95, _⟩ => ⟨S16384x2048, .f32⟩
  | .hbm, ⟨96, _⟩ => ⟨S16384x2048, .f32⟩
  | .hbm, ⟨97, _⟩ => ⟨S1x2048, .f32⟩
  | .hbm, ⟨98, _⟩ => ⟨S16384x2048, .f32⟩
  | .hbm, ⟨99, _⟩ => ⟨S16384x2048, .f32⟩
  | .hbm, ⟨100, _⟩ => ⟨S16384x1024, .f32⟩
  | .hbm, ⟨101, _⟩ => ⟨S1x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x1024_0_0 : S16384x2048.Slices ![0, 0] S16384x1024
  bcast_S_S16384x1024 : S_.BroadcastsInDim S16384x1024 (![] : Fin 0 → Fin S16384x1024.rank)
  slices_S16384x2048_S16384x1024_0_1024 : S16384x2048.Slices ![0, 1024] S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.RowSpec.lean ====
/-
  One row of the gated recurrent update, as a function of the row's two halves and the layer's parameters, in two
  arrangements, and the law that joins them.

  A row of the input is the pair `a, b : Fin 1024 → EReal` (the `x` half and the `h` half of a 2048-entry vector `v`).
  Both arrangements compute
    μ₁, σ₁   the mean and reciprocal deviation of `v`;           n₁ = ((v − μ₁)·σ₁·g₁ + β₁)·d
    gate     = n₁ · Wg + bg   (2048 entries);   r = logistic (gate, first half),  z = logistic (gate, second half)
    v'       = (a, b·r);      μ₂, σ₂ its statistics;             n₂ = ((v' − μ₂)·σ₂·g₂ + β₂)·d
    u        = tanh (n₂ · Wu + bu);             out = b·z + (1 − z)·u.
  The SPLIT arrangement never forms `v`: every sum over the 2048 entries is the sum over `a`'s plus the sum over `b`'s,
  the mean is the total times 2⁻¹¹, and the variance is E[v²] − E[v]². The JOINED arrangement forms `v`, divides by
  2048, and takes the variance as E[(v − μ)²]. Splitting a sum and `x / 2048 = x · 2⁻¹¹` hold on every extended real;
  E[(v − μ)²] = E[v²] − E[v]² is an identity of REAL numbers (it distributes a product over a sum), so the law asks
  that the entries of `a` and `b` be real. `b·r` is then real too, because a logistic value always is.
-/
import Idealize.ShloMosaic.PureOps.Ideal
import Idealize.ShloMosaic.PureOps.Ideal.Laws

noncomputable section

namespace Cert.GatedRow

open Idealize.ShloMosaic
open scoped BigOperators

/-! ## The float words the two programs spell -/

/-- `4.8828125e-4`, the split arrangement's factor. -/
abbrev wInv : EReal := Ideal.ofBits .f32 0x3A000000#32
/-- `2048.0`, the joined arrangement's divisor. -/
abbrev wN : EReal := Ideal.ofBits .f32 0x45000000#32
/-- The variance's offset, the same word on both sides: never evaluated. -/
abbrev wEps : EReal := Ideal.ofBits .f32 0x3727C5AC#32
/-- `1.0`. -/
abbrev wOne : EReal := Ideal.ofBits .f32 0x3F800000#32
/-- `0.0`, the initial value of the joined arrangement's sums. -/
abbrev wZero : EReal := Ideal.ofBits .f32 0x00000000#32

theorem wZero_eq : wZero = 0 := by simp [Ideal.ofBits, Ideal.ieee]
theorem wOne_eq : wOne = 1 := by simp [Ideal.ofBits, Ideal.ieee, -EReal.coe_mul]; norm_num
theorem wN_eq : wN = ((2048 : ℝ) : EReal) := by simp [Ideal.ofBits, Ideal.ieee, -EReal.coe_mul]; norm_num
theorem wInv_eq : wInv = ((1 / 2048 : ℝ) : EReal) := by simp [Ideal.ofBits, Ideal.ieee, -EReal.coe_mul]; norm_num

/-! ## Positions in the two halves -/

/-- Entry `k` of the first half, as an entry of the whole. -/
def lo (k : Fin 1024) : Fin 2048 := ⟨k.val, by omega⟩
/-- Entry `k` of the second half, as an entry of the whole. -/
def hi (k : Fin 1024) : Fin 2048 := ⟨1024 + k.val, by omega⟩

/-- The whole vector from its halves. -/
def cat (a b : Fin 1024 → EReal) (k : Fin 2048) : EReal :=
  if h : k.val < 1024 then a ⟨k.val, h⟩ else b ⟨k.val - 1024, by omega⟩

theorem cat_lo (a b : Fin 1024 → EReal) (k : Fin 1024) : cat a b (lo k) = a k := by
  unfold cat lo; rw [dif_pos k.isLt]
theorem cat_hi (a b : Fin 1024 → EReal) (k : Fin 1024) : cat a b (hi k) = b k := by
  unfold cat hi
  rw [dif_neg (by simp)]
  exact congrArg b (Fin.ext (by simp))

/-- A sum over the 2048 positions is the first half's plus the second half's. -/
theorem sum_halves {M : Type*} [AddCommMonoid M] (f : Fin 2048 → M) :
    ∑ k, f k = ∑ k : Fin 1024, f (lo k) + ∑ k : Fin 1024, f (hi k) := by
  have h := Fin.sum_univ_add (M := M) (a := 1024) (b := 1024) (fun k => f ⟨k.val, k.isLt⟩)
  refine Eq.trans ?_ (h.trans ?_)
  · rfl
  · refine congrArg₂ (· + ·) (Finset.sum_congr rfl fun k _ => ?_) (Finset.sum_congr rfl fun k _ => ?_)
    · rfl
    · exact congrArg f (Fin.ext (by simp [hi]; omega))

/-- One normalised entry: centred, scaled by the reciprocal deviation and the gain, shifted, masked. -/
def nrm (μ s v g β d : EReal) : EReal := ((v - μ) * s * g + β) * d

/-! ## The split arrangement -/

/-- The mean of the 2048 entries of two halves: the two totals, times 2⁻¹¹. -/
def meanS (a b : Fin 1024 → EReal) : EReal := (∑ k, a k + ∑ k, b k) * wInv

/-- Variance plus offset in the form E[v²] − E[v]², from a mean `μ` and the two totals of squares. -/
def varS (μ qa qb : EReal) : EReal := ((qa + qb) * wInv - μ * μ) + wEps

/-- The reciprocal deviation. -/
def istdS (a b : Fin 1024 → EReal) : EReal :=
  Ideal.rsqrt (varS (meanS a b) (∑ k, a k * a k) (∑ k, b k * b k))

/-- A linear layer on the normalised entries, the two halves contracted apart. -/
def linS {n : ℕ} (μ s : EReal) (a b ga gb βa βb da db : Fin 1024 → EReal) (WT WB : Fin 1024 → Fin n → EReal)
    (bias : Fin n → EReal) (j : Fin n) : EReal :=
  (∑ k, nrm μ s (a k) (ga k) (βa k) (da k) * WT k j + ∑ k, nrm μ s (b k) (gb k) (βb k) (db k) * WB k j) + bias j

/-- The layer's parameters as the split arrangement reads them: every 2048-entry vector and the first axis of each
    matrix in its two halves. -/
structure Halves where
  g1x : Fin 1024 → EReal
  g1h : Fin 1024 → EReal
  b1x : Fin 1024 → EReal
  b1h : Fin 1024 → EReal
  g2x : Fin 1024 → EReal
  g2h : Fin 1024 → EReal
  b2x : Fin 1024 → EReal
  b2h : Fin 1024 → EReal
  dx : Fin 1024 → EReal
  dh : Fin 1024 → EReal
  WgT : Fin 1024 → Fin 2048 → EReal
  WgB : Fin 1024 → Fin 2048 → EReal
  bg : Fin 2048 → EReal
  WuT : Fin 1024 → Fin 1024 → EReal
  WuB : Fin 1024 → Fin 1024 → EReal
  bu : Fin 1024 → EReal

/-- The gate's 2048 pre-activations. -/
def gateS (Q : Halves) (a b : Fin 1024 → EReal) (j : Fin 2048) : EReal :=
  linS (meanS a b) (istdS a b) a b Q.g1x Q.g1h Q.b1x Q.b1h Q.dx Q.dh Q.WgT Q.WgB Q.bg j

/-- The second half, reset: `b · logistic (gate, first half)`. -/
def resetS (Q : Halves) (a b : Fin 1024 → EReal) (k : Fin 1024) : EReal :=
  b k * Ideal.logistic (gateS Q a b (lo k))

/-- The update gate: `logistic (gate, second half)`. -/
def updS (Q : Halves) (a b : Fin 1024 → EReal) (q : Fin 1024) : EReal :=
  Ideal.logistic (gateS Q a b (hi q))

/-- The candidate's pre-activation, from ANY reset half `b'`. -/
def candS (Q : Halves) (a b' : Fin 1024 → EReal) (q : Fin 1024) : EReal :=
  linS (meanS a b') (istdS a b') a b' Q.g2x Q.g2h Q.b2x Q.b2h Q.dx Q.dh Q.WuT Q.WuB Q.bu q

/-- The row's result. -/
def rowS (Q : Halves) (a b : Fin 1024 → EReal) (q : Fin 1024) : EReal :=
  b q * updS Q a b q + (wOne - updS Q a b q) * Ideal.tanh (candS Q a (resetS Q a b) q)

/-! ## The joined arrangement -/

/-- The mean: the total from zero, over 2048. -/
def meanC (v : Fin 2048 → EReal) : EReal := Ideal.div (wZero + ∑ k, v k) wN

/-- The reciprocal deviation, the variance as the mean of the squared centred entries. -/
def istdC (v : Fin 2048 → EReal) : EReal :=
  Ideal.rsqrt (Ideal.div (wZero + ∑ k, (v k - meanC v) * (v k - meanC v)) wN + wEps)

/-- A linear layer on the normalised entries, contracted over all 2048. -/
def linC {n : ℕ} (μ s : EReal) (v g β d : Fin 2048 → EReal) (W : Fin 2048 → Fin n → EReal) (bias : Fin n → EReal)
    (j : Fin n) : EReal :=
  (∑ k, nrm μ s (v k) (g k) (β k) (d k) * W k j) + bias j

/-- The logistic function spelt out: `1 / (1 + e^(−x))`. -/
def sigC (x : EReal) : EReal := Ideal.div wOne (wOne + Ideal.exp (-x))

/-- The layer's parameters, whole. -/
structure Whole where
  g1 : Fin 2048 → EReal
  b1 : Fin 2048 → EReal
  g2 : Fin 2048 → EReal
  b2 : Fin 2048 → EReal
  d : Fin 2048 → EReal
  Wg : Fin 2048 → Fin 2048 → EReal
  bg : Fin 2048 → EReal
  Wu : Fin 2048 → Fin 1024 → EReal
  bu : Fin 1024 → EReal

def gateC (P : Whole) (a b : Fin 1024 → EReal) (j : Fin 2048) : EReal :=
  linC (meanC (cat a b)) (istdC (cat a b)) (cat a b) P.g1 P.b1 P.d P.Wg P.bg j

def resetC (P : Whole) (a b : Fin 1024 → EReal) (k : Fin 1024) : EReal :=
  b k * sigC (gateC P a b (lo k))

def updC (P : Whole) (a b : Fin 1024 → EReal) (q : Fin 1024) : EReal :=
  sigC (gateC P a b (hi q))

def candC (P : Whole) (a b' : Fin 1024 → EReal) (q : Fin 1024) : EReal :=
  linC (meanC (cat a b')) (istdC (cat a b')) (cat a b') P.g2 P.b2 P.d P.Wu P.bu q

def rowC (P : Whole) (a b : Fin 1024 → EReal) (q : Fin 1024) : EReal :=
  b q * updC P a b q + (wOne - updC P a b q) * Ideal.tanh (candC P a (resetC P a b) q)

/-- The whole parameters read in halves. -/
def Whole.halves (P : Whole) : Halves where
  g1x := fun k => P.g1 (lo k)
  g1h := fun k => P.g1 (hi k)
  b1x := fun k => P.b1 (lo k)
  b1h := fun k => P.b1 (hi k)
  g2x := fun k => P.g2 (lo k)
  g2h := fun k => P.g2 (hi k)
  b2x := fun k => P.b2 (lo k)
  b2h := fun k => P.b2 (hi k)
  dx := fun k => P.d (lo k)
  dh := fun k => P.d (hi k)
  WgT := fun k j => P.Wg (lo k) j
  WgB := fun k j => P.Wg (hi k) j
  bg := P.bg
  WuT := fun k j => P.Wu (lo k) j
  WuB := fun k j => P.Wu (hi k) j
  bu := P.bu

/-! ## The law -/

/-- The spelt-out logistic is the logistic. -/
theorem sigC_eq (x : EReal) : sigC x = Ideal.logistic x := by
  unfold sigC Ideal.logistic; rw [wOne_eq]

/-- A logistic value is a real number, at the infinities too. -/
theorem logistic_real (x : EReal) : ∃ r : ℝ, Ideal.logistic x = (r : EReal) := by
  induction x using EReal.rec with
  | bot => exact ⟨0, by rw [Ideal.logistic_bot]; rfl⟩
  | top => exact ⟨1, by rw [Ideal.logistic_top]; rfl⟩
  | coe r => exact ⟨_, Ideal.logistic_coe r⟩

/-- Dividing by the word `2048.0` is multiplying by the word `4.8828125e-4`, on every extended real. -/
theorem div_wN (x : EReal) : Ideal.div x wN = x * wInv := by
  rw [wN_eq, wInv_eq, Ideal.div_coe (by norm_num)]

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The two means agree, on every extended real. -/
theorem mean_eq (a b : Fin 1024 → EReal) : meanC (cat a b) = meanS a b := by
  unfold meanC meanS
  rw [div_wN, wZero_eq, zero_add, sum_halves]
  simp only [cat_lo, cat_hi]

/-- E[(v − μ)²] = E[v²] − μ² for the mean μ of 2048 REAL entries given in two halves. -/
theorem var_real (ra rb : Fin 1024 → ℝ) :
    (∑ k, (ra k - (∑ k, ra k + ∑ k, rb k) * (1 / 2048)) * (ra k - (∑ k, ra k + ∑ k, rb k) * (1 / 2048))
      + ∑ k, (rb k - (∑ k, ra k + ∑ k, rb k) * (1 / 2048)) * (rb k - (∑ k, ra k + ∑ k, rb k) * (1 / 2048))) * (1 / 2048)
    = (∑ k, ra k * ra k + ∑ k, rb k * rb k) * (1 / 2048)
      - ((∑ k, ra k + ∑ k, rb k) * (1 / 2048)) * ((∑ k, ra k + ∑ k, rb k) * (1 / 2048)) := by
  generalize hμ : (∑ k, ra k + ∑ k, rb k) * (1 / 2048) = μ
  have e : ∀ (r : Fin 1024 → ℝ), ∑ k, (r k - μ) * (r k - μ) = ∑ k, r k * r k - 2 * μ * ∑ k, r k + 1024 * (μ * μ) := by
    intro r
    have : ∀ k, (r k - μ) * (r k - μ) = r k * r k - 2 * μ * r k + μ * μ := fun k => by ring
    simp only [this, Finset.sum_add_distrib, Finset.sum_sub_distrib, ← Finset.mul_sum, Finset.sum_const,
      Finset.card_univ, Fintype.card_fin, nsmul_eq_mul]
    push_cast; ring
  rw [e ra, e rb]
  have hs : ∑ k, ra k + ∑ k, rb k = 2048 * μ := by rw [← hμ]; ring
  have : ∑ k, ra k * ra k - 2 * μ * ∑ k, ra k + 1024 * (μ * μ) + (∑ k, rb k * rb k - 2 * μ * ∑ k, rb k + 1024 * (μ * μ))
      = (∑ k, ra k * ra k + ∑ k, rb k * rb k) - 2 * μ * (∑ k, ra k + ∑ k, rb k) + 2048 * (μ * μ) := by ring
  rw [this, hs]; ring

/-- The two reciprocal deviations agree when every entry is real. -/
theorem istd_eq (a b : Fin 1024 → EReal) (ha : ∀ k, ∃ r : ℝ, a k = (r : EReal)) (hb : ∀ k, ∃ r : ℝ, b k = (r : EReal)) :
    istdC (cat a b) = istdS a b := by
  choose ra hra using ha
  choose rb hrb using hb
  unfold istdC istdS varS
  rw [mean_eq]
  unfold meanS
  rw [div_wN, wZero_eq, zero_add, sum_halves]
  simp only [cat_lo, cat_hi, hra, hrb, wInv_eq]
  refine congrArg (fun t => Ideal.rsqrt (t + wEps)) ?_
  simp only [← coe_sum, ← EReal.coe_add, ← EReal.coe_mul, ← EReal.coe_sub]
  exact congrArg _ (var_real ra rb)

/-- A linear layer on the normalised entries: contracting over all 2048 is contracting the halves apart. -/
theorem lin_eq {n : ℕ} (μ s : EReal) (a b : Fin 1024 → EReal) (g β d : Fin 2048 → EReal) (W : Fin 2048 → Fin n → EReal)
    (bias : Fin n → EReal) (j : Fin n) :
    linC μ s (cat a b) g β d W bias j
      = linS μ s a b (fun k => g (lo k)) (fun k => g (hi k)) (fun k => β (lo k)) (fun k => β (hi k))
          (fun k => d (lo k)) (fun k => d (hi k)) (fun k j => W (lo k) j) (fun k j => W (hi k) j) bias j := by
  unfold linC linS
  rw [sum_halves]
  simp only [cat_lo, cat_hi]

theorem gate_eq (P : Whole) (a b : Fin 1024 → EReal) (ha : ∀ k, ∃ r : ℝ, a k = (r : EReal))
    (hb : ∀ k, ∃ r : ℝ, b k = (r : EReal)) (j : Fin 2048) : gateC P a b j = gateS P.halves a b j := by
  unfold gateC gateS
  rw [mean_eq, istd_eq a b ha hb, lin_eq]
  rfl

theorem reset_eq (P : Whole) (a b : Fin 1024 → EReal) (ha : ∀ k, ∃ r : ℝ, a k = (r : EReal))
    (hb : ∀ k, ∃ r : ℝ, b k = (r : EReal)) : resetC P a b = resetS P.halves a b := by
  funext k
  unfold resetC resetS
  rw [sigC_eq, gate_eq P a b ha hb]

theorem reset_real (Q : Halves) (a b : Fin 1024 → EReal) (hb : ∀ k, ∃ r : ℝ, b k = (r : EReal)) (k : Fin 1024) :
    ∃ r : ℝ, resetS Q a b k = (r : EReal) := by
  obtain ⟨rb, hrb⟩ := hb k
  obtain ⟨rl, hrl⟩ := logistic_real (gateS Q a b (lo k))
  exact ⟨rb * rl, by unfold resetS; rw [hrb, hrl, EReal.coe_mul]⟩

theorem cand_eq (P : Whole) (a b' : Fin 1024 → EReal) (ha : ∀ k, ∃ r : ℝ, a k = (r : EReal))
    (hb : ∀ k, ∃ r : ℝ, b' k = (r : EReal)) (q : Fin 1024) : candC P a b' q = candS P.halves a b' q := by
  unfold candC candS
  rw [mean_eq, istd_eq a b' ha hb, lin_eq]
  rfl

/-- THE LAW: on a row of real entries the joined arrangement's result is the split arrangement's. -/
theorem rowC_eq_rowS (P : Whole) (a b : Fin 1024 → EReal) (ha : ∀ k, ∃ r : ℝ, a k = (r : EReal))
    (hb : ∀ k, ∃ r : ℝ, b k = (r : EReal)) (q : Fin 1024) : rowC P a b q = rowS P.halves a b q := by
  unfold rowC rowS updC updS
  rw [sigC_eq, gate_eq P a b ha hb, reset_eq P a b ha hb,
    cand_eq P a _ ha (reset_real P.halves a b hb)]

end Cert.GatedRow

end
-- ==== Proof.Params.lean ====
/-
  The layer's result as a function of the eleven argument arrays: row `r` of the output is the row function
  (RowSpec.lean) of row `r` of `x` and of `h` and of the parameters, the same for every row. Stated in the split and in
  the joined arrangement; on arrays of real numbers the two are one function.
-/
import proofs.«127600_j25391846654706_2_alg».proof.Proof.RowSpec
import Idealize.ShloMosaic.Lib.ValueIdx

noncomputable section

namespace Cert.GatedRow

open Idealize.ShloMosaic Idealize.ShloMosaic.ValueIdx

/-- A two-axis and a one-axis array of extended reals, over literal extents. -/
abbrev Arr2 (n0 n1 : ℕ) : Type := (⟨2, ![n0, n1]⟩ : Shape).Idx → EReal
abbrev Arr1 (n : ℕ) : Type := (⟨1, ![n]⟩ : Shape).Idx → EReal

/-- The parameters, read off the arrays by coordinates. -/
def wholeOf (Wg : Arr2 2048 2048) (bg : Arr1 2048) (Wu : Arr2 2048 1024) (bu : Arr1 1024) (g1 b1 g2 b2 d : Arr1 2048) :
    Whole where
  g1 := fun k => g1 (ix1 k)
  b1 := fun k => b1 (ix1 k)
  g2 := fun k => g2 (ix1 k)
  b2 := fun k => b2 (ix1 k)
  d := fun k => d (ix1 k)
  Wg := fun k j => Wg (ix2 k j)
  bg := fun j => bg (ix1 j)
  Wu := fun k j => Wu (ix2 k j)
  bu := fun j => bu (ix1 j)

/-- Row `r` of a [16384, 1024] array. -/
def rowOf (X : Arr2 16384 1024) (r : Fin 16384) : Fin 1024 → EReal := fun k => X (ix2 r k)

/-- The result in the split arrangement, entry (r, q). -/
def outS (X H : Arr2 16384 1024) (P : Whole) (r : Fin 16384) (q : Fin 1024) : EReal :=
  rowS P.halves (rowOf X r) (rowOf H r) q

/-- The result in the joined arrangement, entry (r, q). -/
def outC (X H : Arr2 16384 1024) (P : Whole) (r : Fin 16384) (q : Fin 1024) : EReal :=
  rowC P (rowOf X r) (rowOf H r) q

/-- On arrays `x`, `h` of real numbers the two arrangements give one array. -/
theorem outC_eq_outS (X H : Arr2 16384 1024) (P : Whole) (hX : ∀ i, ∃ t : ℝ, X i = (t : EReal))
    (hH : ∀ i, ∃ t : ℝ, H i = (t : EReal)) (r : Fin 16384) (q : Fin 1024) : outC X H P r q = outS X H P r q :=
  rowC_eq_rowS P (rowOf X r) (rowOf H r) (fun k => hX _) (fun k => hH _) q

end Cert.GatedRow

end
-- ==== Proof.KernelOps.lean ====
/-
  The kernel body's vector operations read at explicit coordinates, at the exact extended-real instance: a row sum kept
  as a column, a column or a row spread over a [128, n] tile, the two column windows of a [128, 2048] tile, and a
  [128, 1024] × [1024, n] product into a zero accumulator as the sum over the contracted coordinate.
-/
import proofs.«127600_j25391846654706_2_alg».proof.Proof.Gen.KernelIdeal.Skeleton
import proofs.«127600_j25391846654706_2_alg».proof.Proof.LibColumn
import proofs.«127600_j25391846654706_2_alg».proof.Proof.Params
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx
open Cert.GatedRow

/-- The sum of a [128, 1024] tile along its rows, kept as a [128, 1] column: entry `p` is the sum of row `p`. -/
theorem rowsum_apply (v : FVec Ideal S128x1024 .f32) (p : Fin 128) (u : Fin 1) :
    shapeCast S128x1 (multiReduction .add [1] S128 v 0x00000000#32 reduces_S128x1024_S128 (.inl rfl) rfl)
        shapeCasts_S128_S128x1 (ix2 p u)
      = ∑ k : Fin 1024, v (ix2 p k) := by
  refine (Cert.LibColumn.shapeCast_a_a1_apply _ shapeCasts_S128_S128x1 p u).trans ?_
  refine (Ideal.multiReduction_add_single v 0x00000000#32 reduces_S128x1024_S128 (.inl rfl) rfl (ix1 p)).trans ?_
  exact Finset.sum_congr rfl fun k _ => congrArg v (funext fun a => Fin.ext (by
    match a with
    | ⟨0, _⟩ => rfl
    | ⟨1, _⟩ => rfl))

/-- A [128, 1] column spread over the 1024 lanes reads the column at the row. -/
theorem colspread_apply (v : FVec Ideal S128x1 .f32) (p : Fin 128) (k : Fin 1024) :
    broadcastTo S128x1024 v broadcasts_S128x1_S128x1024 (ix2 p k) = v (ix2 p (0 : Fin 1)) :=
  Cert.LibColumn.broadcastTo_a1_ab_apply v broadcasts_S128x1_S128x1024 p k

/-- A 1024-entry vector spread down the 128 rows reads the vector at the lane. -/
theorem rowspread_apply (v : FVec Ideal S1024 .f32) (p : Fin 128) (k : Fin 1024) :
    broadcastTo S128x1024 (shapeCast S1x1024 v shapeCasts_S1024_S1x1024) broadcasts_S1x1024_S128x1024 (ix2 p k)
      = v (ix1 k) :=
  (broadcastTo_1b_ab_apply _ broadcasts_S1x1024_S128x1024 p k).trans
    (shapeCast_a_1a_apply v shapeCasts_S1024_S1x1024 0 k)

/-- The same for a 2048-entry vector over a [128, 2048] tile. -/
theorem rowspread2048_apply (v : FVec Ideal S2048 .f32) (p : Fin 128) (j : Fin 2048) :
    broadcastTo S128x2048 (shapeCast S1x2048 v shapeCasts_S2048_S1x2048) broadcasts_S1x2048_S128x2048 (ix2 p j)
      = v (ix1 j) :=
  (broadcastTo_1b_ab_apply _ broadcasts_S1x2048_S128x2048 p j).trans
    (shapeCast_a_1a_apply v shapeCasts_S2048_S1x2048 0 j)

/-- The first 1024 columns of a [128, 2048] tile. -/
theorem window_lo_apply (v : FVec Ideal S128x2048 .f32) (p : Fin 128) (q : Fin 1024) :
    extractStridedSlice S128x1024 ![0, 0] v slices_S128x2048_o0_0_S128x1024 (ix2 p q) = v (ix2 p (lo q)) :=
  slice2_axis1_apply 0 v slices_S128x2048_o0_0_S128x1024 p q (lo q) (by simp [lo])

/-- The last 1024 columns of a [128, 2048] tile. -/
theorem window_hi_apply (v : FVec Ideal S128x2048 .f32) (p : Fin 128) (q : Fin 1024) :
    extractStridedSlice S128x1024 ![0, 1024] v slices_S128x2048_o0_1024_S128x1024 (ix2 p q) = v (ix2 p (hi q)) :=
  slice2_axis1_apply 1024 v slices_S128x2048_o0_1024_S128x1024 p q (hi q) (by simp [hi])

theorem matmul2048_l0 (i : S128x2048.Idx) (c : dot_S128x1024_S1024x2048_S128x2048_1_0_0_1_n_n.contr.Idx) : (dot_S128x1024_S1024x2048_S128x2048_1_0_0_1_n_n.lhsIdx i c 0).val = (i 0).val := by
  unfold DotDims.lhsIdx
  rw [dif_neg (show ¬(0 : Fin S128x1024.rank) ∈ dot_S128x1024_S1024x2048_S128x2048_1_0_0_1_n_n.lhsBatch by decide),
    dif_pos (show (0 : Fin S128x1024.rank) ∈ dot_S128x1024_S1024x2048_S128x2048_1_0_0_1_n_n.lhsNonContracting by decide)]
  rfl
theorem matmul2048_l1 (i : S128x2048.Idx) (c : dot_S128x1024_S1024x2048_S128x2048_1_0_0_1_n_n.contr.Idx) : (dot_S128x1024_S1024x2048_S128x2048_1_0_0_1_n_n.lhsIdx i c 1).val = (c ⟨0, by decide⟩).val :=
  dot_S128x1024_S1024x2048_S128x2048_1_0_0_1_n_n.lhsIdx_val_of_single rfl i c
theorem matmul2048_r0 (i : S128x2048.Idx) (c : dot_S128x1024_S1024x2048_S128x2048_1_0_0_1_n_n.contr.Idx) : (dot_S128x1024_S1024x2048_S128x2048_1_0_0_1_n_n.rhsIdx i c 0).val = (c ⟨0, by decide⟩).val :=
  dot_S128x1024_S1024x2048_S128x2048_1_0_0_1_n_n.rhsIdx_val_of_single rfl i c
theorem matmul2048_r1 (i : S128x2048.Idx) (c : dot_S128x1024_S1024x2048_S128x2048_1_0_0_1_n_n.contr.Idx) : (dot_S128x1024_S1024x2048_S128x2048_1_0_0_1_n_n.rhsIdx i c 1).val = (i 1).val := by
  unfold DotDims.rhsIdx
  rw [dif_neg (show ¬(1 : Fin S1024x2048.rank) ∈ dot_S128x1024_S1024x2048_S128x2048_1_0_0_1_n_n.rhsBatch by decide),
    dif_pos (show (1 : Fin S1024x2048.rank) ∈ dot_S128x1024_S1024x2048_S128x2048_1_0_0_1_n_n.rhsNonContracting by decide)]
  rfl

/-- A [128, 1024] × [1024, 2048] product into a zero accumulator, at (p, j): the sum over the contracted coordinate
    of the products. -/
theorem matmul2048_apply (l : FVec Ideal S128x1024 .bf16) (r : FVec Ideal S1024x2048 .bf16) (p : Fin 128) (j : Fin 2048) :
    matmul dot_S128x1024_S1024x2048_S128x2048_1_0_0_1_n_n none l r (constant S128x2048 .f32 0x00000000#32) (ix2 p j)
      = ∑ k : Fin 1024, l (ix2 p k) * r (ix2 k j) := by
  refine (Ideal.matmul_constant_zero_apply dot_S128x1024_S1024x2048_S128x2048_1_0_0_1_n_n none l r (ix2 p j)).trans ?_
  rw [← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p j) ((contrEquiv1 dot_S128x1024_S1024x2048_S128x2048_1_0_0_1_n_n 1024 rfl rfl).symm k) = ix2 p k :=
    funext fun a => Fin.ext (by
      match a with
      | ⟨0, _⟩ => exact matmul2048_l0 _ _
      | ⟨1, _⟩ => exact (matmul2048_l1 _ _).trans hk)
  have er : dot_S128x1024_S1024x2048_S128x2048_1_0_0_1_n_n.rhsIdx (ix2 p j) ((contrEquiv1 dot_S128x1024_S1024x2048_S128x2048_1_0_0_1_n_n 1024 rfl rfl).symm k) = ix2 k j :=
    funext fun a => Fin.ext (by
      match a with
      | ⟨0, _⟩ => exact (matmul2048_r0 _ _).trans hk
      | ⟨1, _⟩ => exact matmul2048_r1 _ _)
  rw [el, er]

theorem matmul1024_l0 (i : S128x1024.Idx) (c : dot_S128x1024_S1024x1024_S128x1024_1_0_0_1_n_n.contr.Idx) : (dot_S128x1024_S1024x1024_S128x1024_1_0_0_1_n_n.lhsIdx i c 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem matmul1024_l1 (i : S128x1024.Idx) (c : dot_S128x1024_S1024x1024_S128x1024_1_0_0_1_n_n.contr.Idx) : (dot_S128x1024_S1024x1024_S128x1024_1_0_0_1_n_n.lhsIdx i c 1).val = (c ⟨0, by decide⟩).val :=
  dot_S128x1024_S1024x1024_S128x1024_1_0_0_1_n_n.lhsIdx_val_of_single rfl i c
theorem matmul1024_r0 (i : S128x1024.Idx) (c : dot_S128x1024_S1024x1024_S128x1024_1_0_0_1_n_n.contr.Idx) : (dot_S128x1024_S1024x1024_S128x1024_1_0_0_1_n_n.rhsIdx i c 0).val = (c ⟨0, by decide⟩).val :=
  dot_S128x1024_S1024x1024_S128x1024_1_0_0_1_n_n.rhsIdx_val_of_single rfl i c
theorem matmul1024_r1 (i : S128x1024.Idx) (c : dot_S128x1024_S1024x1024_S128x1024_1_0_0_1_n_n.contr.Idx) : (dot_S128x1024_S1024x1024_S128x1024_1_0_0_1_n_n.rhsIdx i c 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- A [128, 1024] × [1024, 1024] product into a zero accumulator, at (p, q): the sum over the contracted coordinate
    of the products. -/
theorem matmul1024_apply (l : FVec Ideal S128x1024 .bf16) (r : FVec Ideal S1024x1024 .bf16) (p : Fin 128) (q : Fin 1024) :
    matmul dot_S128x1024_S1024x1024_S128x1024_1_0_0_1_n_n none l r (constant S128x1024 .f32 0x00000000#32) (ix2 p q)
      = ∑ k : Fin 1024, l (ix2 p k) * r (ix2 k q) := by
  refine (Ideal.matmul_constant_zero_apply dot_S128x1024_S1024x1024_S128x1024_1_0_0_1_n_n none l r (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k :=
    funext fun a => Fin.ext (by
      match a with
      | ⟨0, _⟩ => exact matmul1024_l0 _ _
      | ⟨1, _⟩ => exact (matmul1024_l1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q :=
    funext fun a => Fin.ext (by
      match a with
      | ⟨0, _⟩ => exact (matmul1024_r0 _ _).trans hk
      | ⟨1, _⟩ => exact matmul1024_r1 _ _)
  rw [el, er]

/-! ## The body's loads as rows, vectors and matrices of extended reals -/

/-- Row `p` of a [128, 1024] tile. -/
abbrev trow (V : FVec Ideal S128x1024 .f32) (p : Fin 128) : Fin 1024 → EReal := fun k => V (ix2 p k)
/-- A 1024-entry vector by its coordinate. -/
abbrev vec (v : FVec Ideal S1024 .f32) : Fin 1024 → EReal := fun k => v (ix1 k)
/-- A 2048-entry vector by its coordinate. -/
abbrev vec2 (v : FVec Ideal S2048 .f32) : Fin 2048 → EReal := fun k => v (ix1 k)
/-- A [1024, 2048] matrix by its coordinates. -/
abbrev mat2 (W : FVec Ideal S1024x2048 .bf16) : Fin 1024 → Fin 2048 → EReal := fun k j => W (ix2 k j)
/-- A [1024, 1024] matrix by its coordinates. -/
abbrev mat1 (W : FVec Ideal S1024x1024 .bf16) : Fin 1024 → Fin 1024 → EReal := fun k j => W (ix2 k j)

/-- The parameters in halves, as the body loads them: the gate's bias whole, the candidate's bias, the five
    2048-entry vectors each in two loads, each matrix in its upper and lower 1024 rows. -/
def halvesOf (bg : FVec Ideal S2048 .f32) (bu g1x g1h b1x b1h g2x g2h b2x b2h dx dh : FVec Ideal S1024 .f32)
    (WgT WgB : FVec Ideal S1024x2048 .bf16) (WuT WuB : FVec Ideal S1024x1024 .bf16) : Halves where
  g1x := vec g1x
  g1h := vec g1h
  b1x := vec b1x
  b1h := vec b1h
  g2x := vec g2x
  g2h := vec g2h
  b2x := vec b2x
  b2h := vec b2h
  dx := vec dx
  dh := vec dh
  WgT := mat2 WgT
  WgB := mat2 WgB
  bg := vec2 bg
  WuT := mat1 WuT
  WuB := mat1 WuB
  bu := vec bu

/-! ## The pointwise transcendentals at an index -/

theorem rsqrt_apply {s : Shape} (v : FVec Ideal s .f32) (i : s.Idx) : rsqrt v i = Ideal.rsqrt (v i) := rfl
theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

end Cert.KernelIdeal.RowValue

end
-- ==== Proof.KernelRow0.lean ====
/-
  The first 128 rows of a block: every value the body computes for them, read at explicit coordinates, is the
  corresponding piece of the row function in its split arrangement (RowSpec.lean), of row `p` of the block's `x` tile
  and `h` tile and of the parameters as loaded; the stored value is the row function itself.
-/
import proofs.«127600_j25391846654706_2_alg».proof.Proof.KernelOps

noncomputable section

namespace Cert.KernelIdeal.RowValue

open Cert.KernelIdeal Cert.KernelIdeal.Gen Idealize.ShloMosaic Idealize.ShloMosaic.ValueIdx
open Cert.GatedRow

/-- The mean of a row's 2048 entries. -/
theorem pay1_apply (X H : FVec Ideal S128x1024 .f32) (p : Fin 128) (u : Fin 1) :
    k0_pay1 (F := Ideal) X H (ix2 p u) = meanS (trow X p) (trow H p) := by
  unfold k0_pay1
  simp only [mulf_apply, addf_apply, broadcast_apply]
  rw [rowsum_apply, rowsum_apply]
  rfl

/-- The reciprocal deviation of a row's 2048 entries. -/
theorem pay2_apply (X H : FVec Ideal S128x1024 .f32) (p : Fin 128) (u : Fin 1) :
    k0_pay2 (F := Ideal) X H (ix2 p u) = istdS (trow X p) (trow H p) := by
  unfold k0_pay2
  simp only [rsqrt_apply, mulf_apply, addf_apply, subf_apply, broadcast_apply, pay1_apply]
  rw [rowsum_apply, rowsum_apply]
  rfl

/-- The mean again, spread over the lanes. -/
theorem pay3_apply (X H : FVec Ideal S128x1024 .f32) (p : Fin 128) (k : Fin 1024) :
    k0_pay3 (F := Ideal) X H (ix2 p k) = meanS (trow X p) (trow H p) := by
  unfold k0_pay3
  simp only [colspread_apply, pay1_apply]

/-- The gate's pre-activations: the normalised row against the gate's matrix, its two halves contracted apart. -/
theorem pay4_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (j : Fin 2048) :
    k0_pay4 (F := Ideal) bg g1x g1h b1x b1h dx dh X H (k0_pay1 X H) (k0_pay2 X H) (k0_pay3 X H) WgT WgB (ix2 p j) = gateS (halvesOf bg bu g1x g1h b1x b1h g2x g2h b2x b2h dx dh WgT WgB WuT WuB) (trow X p) (trow H p) j := by
  unfold k0_pay4
  simp only [addf_apply, mulf_apply, subf_apply, truncf_apply, rowspread2048_apply, rowspread_apply, colspread_apply,
    matmul2048_apply, shapeCast_self, pay1_apply, pay2_apply, pay3_apply]
  rfl

/-- The update gate. -/
theorem pay5_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay5 (F := Ideal) bg g1x g1h b1x b1h dx dh X H (k0_pay1 X H) (k0_pay2 X H) (k0_pay3 X H) WgT WgB (ix2 p q) = updS (halvesOf bg bu g1x g1h b1x b1h g2x g2h b2x b2h dx dh WgT WgB WuT WuB) (trow X p) (trow H p) q := by
  unfold k0_pay5
  simp only [logistic_apply, window_hi_apply, pay4_apply bg bu g1x g1h b1x b1h g2x g2h b2x b2h dx dh X H WgT WgB WuT WuB p]
  rfl

/-- The reset half of the row. -/
theorem pay6_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay6 (F := Ideal) bg g1x g1h b1x b1h dx dh X H (k0_pay1 X H) (k0_pay2 X H) (k0_pay3 X H) WgT WgB (ix2 p q) = resetS (halvesOf bg bu g1x g1h b1x b1h g2x g2h b2x b2h dx dh WgT WgB WuT WuB) (trow X p) (trow H p) q := by
  unfold k0_pay6
  simp only [mulf_apply, logistic_apply, window_lo_apply, pay4_apply bg bu g1x g1h b1x b1h g2x g2h b2x b2h dx dh X H WgT WgB WuT WuB p]
  rfl

/-- The total of the second layer's 2048 entries. -/
theorem pay7_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (u : Fin 1) :
    k0_pay7 (F := Ideal) bg g1x g1h b1x b1h dx dh X H (k0_pay1 X H) (k0_pay2 X H) (k0_pay3 X H) WgT WgB (ix2 p u) = ∑ k, (trow X p) k + ∑ k, resetS (halvesOf bg bu g1x g1h b1x b1h g2x g2h b2x b2h dx dh WgT WgB WuT WuB) (trow X p) (trow H p) k := by
  unfold k0_pay7
  simp only [addf_apply]
  rw [rowsum_apply, rowsum_apply]
  simp only [pay6_apply bg bu g1x g1h b1x b1h g2x g2h b2x b2h dx dh X H WgT WgB WuT WuB p]

/-- The total of the squares of the `x` half. -/
theorem pay8_apply (X : FVec Ideal S128x1024 .f32) (p : Fin 128) (u : Fin 1) :
    k0_pay8 (F := Ideal) X (ix2 p u) = ∑ k, (trow X p) k * (trow X p) k := by
  unfold k0_pay8
  rw [rowsum_apply]
  rfl

/-- The squares of the reset half. -/
theorem pay9_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (k : Fin 1024) :
    k0_pay9 (F := Ideal) bg g1x g1h b1x b1h dx dh X H (k0_pay1 X H) (k0_pay2 X H) (k0_pay3 X H) WgT WgB (ix2 p k) = resetS (halvesOf bg bu g1x g1h b1x b1h g2x g2h b2x b2h dx dh WgT WgB WuT WuB) (trow X p) (trow H p) k * resetS (halvesOf bg bu g1x g1h b1x b1h g2x g2h b2x b2h dx dh WgT WgB WuT WuB) (trow X p) (trow H p) k := by
  unfold k0_pay9
  simp only [mulf_apply, pay6_apply bg bu g1x g1h b1x b1h g2x g2h b2x b2h dx dh X H WgT WgB WuT WuB p]

/-- The candidate's pre-activation. -/
theorem pay10_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay10 (F := Ideal) bu g2x g2h b2x b2h dx dh X (k0_pay6 bg g1x g1h b1x b1h dx dh X H (k0_pay1 X H) (k0_pay2 X H) (k0_pay3 X H) WgT WgB) (k0_pay7 bg g1x g1h b1x b1h dx dh X H (k0_pay1 X H) (k0_pay2 X H) (k0_pay3 X H) WgT WgB) (k0_pay8 X) (k0_pay9 bg g1x g1h b1x b1h dx dh X H (k0_pay1 X H) (k0_pay2 X H) (k0_pay3 X H) WgT WgB) WuT WuB (ix2 p q) = candS (halvesOf bg bu g1x g1h b1x b1h g2x g2h b2x b2h dx dh WgT WgB WuT WuB) (trow X p) (resetS (halvesOf bg bu g1x g1h b1x b1h g2x g2h b2x b2h dx dh WgT WgB WuT WuB) (trow X p) (trow H p)) q := by
  unfold k0_pay10
  simp only [addf_apply, mulf_apply, subf_apply, truncf_apply, rsqrt_apply, broadcast_apply, colspread_apply,
    rowspread_apply, matmul1024_apply, shapeCast_self,
    pay6_apply bg bu g1x g1h b1x b1h g2x g2h b2x b2h dx dh X H WgT WgB WuT WuB p,
    pay7_apply bg bu g1x g1h b1x b1h g2x g2h b2x b2h dx dh X H WgT WgB WuT WuB p,
    pay8_apply]
  rw [rowsum_apply]
  simp only [pay9_apply bg bu g1x g1h b1x b1h g2x g2h b2x b2h dx dh X H WgT WgB WuT WuB p]
  rfl

/-- THE FIRST STORE's value at (p, q): the row function of row `p`. -/
theorem top_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay11 (F := Ideal) H (k0_pay5 bg g1x g1h b1x b1h dx dh X H (k0_pay1 X H) (k0_pay2 X H) (k0_pay3 X H) WgT WgB) (k0_pay10 bu g2x g2h b2x b2h dx dh X (k0_pay6 bg g1x g1h b1x b1h dx dh X H (k0_pay1 X H) (k0_pay2 X H) (k0_pay3 X H) WgT WgB) (k0_pay7 bg g1x g1h b1x b1h dx dh X H (k0_pay1 X H) (k0_pay2 X H) (k0_pay3 X H) WgT WgB) (k0_pay8 X) (k0_pay9 bg g1x g1h b1x b1h dx dh X H (k0_pay1 X H) (k0_pay2 X H) (k0_pay3 X H) WgT WgB) WuT WuB) (ix2 p q) = rowS (halvesOf bg bu g1x g1h b1x b1h g2x g2h b2x b2h dx dh WgT WgB WuT WuB) (trow X p) (trow H p) q := by
  unfold k0_pay11
  simp only [addf_apply, mulf_apply, subf_apply, tanh_apply, broadcast_apply,
    pay5_apply bg bu g1x g1h b1x b1h g2x g2h b2x b2h dx dh X H WgT WgB WuT WuB p,
    pay10_apply bg bu g1x g1h b1x b1h g2x g2h b2x b2h dx dh X H WgT WgB WuT WuB p]
  rfl

end Cert.KernelIdeal.RowValue

end
-- ==== Proof.KernelRow1.lean ====
/-
  The last 128 rows of a block: the body computes them by the same operations as the first 128, cut into its values at
  other places. Read at explicit coordinates each value is again a piece of the row function in its split arrangement
  (RowSpec.lean) of row `p` of the tiles it loads, and the stored value is the row function itself.
-/
import proofs.«127600_j25391846654706_2_alg».proof.Proof.KernelOps

noncomputable section

namespace Cert.KernelIdeal.RowValue

open Cert.KernelIdeal Cert.KernelIdeal.Gen Idealize.ShloMosaic Idealize.ShloMosaic.ValueIdx
open Cert.GatedRow

/-- The mean of a row's 2048 entries. -/
theorem pay12_apply (X H : FVec Ideal S128x1024 .f32) (p : Fin 128) (u : Fin 1) :
    k0_pay12 (F := Ideal) X H (ix2 p u) = meanS (trow X p) (trow H p) := by
  unfold k0_pay12
  simp only [mulf_apply, addf_apply, broadcast_apply]
  rw [rowsum_apply, rowsum_apply]
  rfl

/-- The reciprocal deviation of a row's 2048 entries. -/
theorem pay13_apply (X H : FVec Ideal S128x1024 .f32) (p : Fin 128) (u : Fin 1) :
    k0_pay13 (F := Ideal) X H (ix2 p u) = istdS (trow X p) (trow H p) := by
  unfold k0_pay13
  simp only [rsqrt_apply, mulf_apply, addf_apply, subf_apply, broadcast_apply, pay12_apply]
  rw [rowsum_apply, rowsum_apply]
  rfl

/-- The `x` half centred, scaled and shifted, before the mask. -/
theorem pay14_apply (g1x b1x : FVec Ideal S1024 .f32) (X H : FVec Ideal S128x1024 .f32) (p : Fin 128) (k : Fin 1024) :
    k0_pay14 (F := Ideal) g1x b1x X H (ix2 p k)
      = (X (ix2 p k) - meanS (trow X p) (trow H p)) * istdS (trow X p) (trow H p) * g1x (ix1 k) + b1x (ix1 k) := by
  unfold k0_pay14
  simp only [addf_apply, mulf_apply, subf_apply, colspread_apply, rowspread_apply, pay12_apply, pay13_apply]

/-- The `h` half centred and scaled by the reciprocal deviation. -/
theorem pay15_apply (X H : FVec Ideal S128x1024 .f32) (p : Fin 128) (k : Fin 1024) :
    k0_pay15 (F := Ideal) X H (ix2 p k) = (H (ix2 p k) - meanS (trow X p) (trow H p)) * istdS (trow X p) (trow H p) := by
  unfold k0_pay15
  simp only [mulf_apply, subf_apply, colspread_apply, pay12_apply, pay13_apply]

/-- The gate's pre-activations. -/
theorem pay17_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (j : Fin 2048) :
    k0_pay17 (F := Ideal) bg b1h dx dh (k0_pay14 g1x b1x X H) (k0_pay15 X H) (k0_pay16 g1h) WgT WgB (ix2 p j) = gateS (halvesOf bg bu g1x g1h b1x b1h g2x g2h b2x b2h dx dh WgT WgB WuT WuB) (trow X p) (trow H p) j := by
  unfold k0_pay17 k0_pay16
  simp only [addf_apply, mulf_apply, truncf_apply, rowspread2048_apply, rowspread_apply, matmul2048_apply, shapeCast_self,
    pay14_apply, pay15_apply]
  rfl

/-- The update gate. -/
theorem pay18_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay18 (F := Ideal) bg b1h dx dh (k0_pay14 g1x b1x X H) (k0_pay15 X H) (k0_pay16 g1h) WgT WgB (ix2 p q) = updS (halvesOf bg bu g1x g1h b1x b1h g2x g2h b2x b2h dx dh WgT WgB WuT WuB) (trow X p) (trow H p) q := by
  unfold k0_pay18
  simp only [logistic_apply, window_hi_apply, pay17_apply bg bu g1x g1h b1x b1h g2x g2h b2x b2h dx dh X H WgT WgB WuT WuB p]
  rfl

/-- The reset half of the row. -/
theorem pay19_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay19 (F := Ideal) bg b1h dx dh H (k0_pay14 g1x b1x X H) (k0_pay15 X H) (k0_pay16 g1h) WgT WgB (ix2 p q) = resetS (halvesOf bg bu g1x g1h b1x b1h g2x g2h b2x b2h dx dh WgT WgB WuT WuB) (trow X p) (trow H p) q := by
  unfold k0_pay19
  simp only [mulf_apply, logistic_apply, window_lo_apply, pay17_apply bg bu g1x g1h b1x b1h g2x g2h b2x b2h dx dh X H WgT WgB WuT WuB p]
  rfl

/-- The second layer's mean. -/
theorem pay20_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (u : Fin 1) :
    k0_pay20 (F := Ideal) bg b1h dx dh X H (k0_pay14 g1x b1x X H) (k0_pay15 X H) (k0_pay16 g1h) WgT WgB (ix2 p u) = meanS (trow X p) (resetS (halvesOf bg bu g1x g1h b1x b1h g2x g2h b2x b2h dx dh WgT WgB WuT WuB) (trow X p) (trow H p)) := by
  unfold k0_pay20
  simp only [mulf_apply, addf_apply, broadcast_apply]
  rw [rowsum_apply, rowsum_apply]
  simp only [pay19_apply bg bu g1x g1h b1x b1h g2x g2h b2x b2h dx dh X H WgT WgB WuT WuB p]
  rfl

/-- The second layer's variance, before the offset. -/
theorem pay21_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (u : Fin 1) :
    k0_pay21 (F := Ideal) bg b1h dx dh X H (k0_pay14 g1x b1x X H) (k0_pay15 X H) (k0_pay16 g1h) WgT WgB (ix2 p u)
      = (∑ k, (trow X p) k * (trow X p) k + ∑ k, (resetS (halvesOf bg bu g1x g1h b1x b1h g2x g2h b2x b2h dx dh WgT WgB WuT WuB) (trow X p) (trow H p)) k * (resetS (halvesOf bg bu g1x g1h b1x b1h g2x g2h b2x b2h dx dh WgT WgB WuT WuB) (trow X p) (trow H p)) k) * wInv - meanS (trow X p) (resetS (halvesOf bg bu g1x g1h b1x b1h g2x g2h b2x b2h dx dh WgT WgB WuT WuB) (trow X p) (trow H p)) * meanS (trow X p) (resetS (halvesOf bg bu g1x g1h b1x b1h g2x g2h b2x b2h dx dh WgT WgB WuT WuB) (trow X p) (trow H p)) := by
  unfold k0_pay21
  simp only [mulf_apply, addf_apply, subf_apply, broadcast_apply, pay20_apply bg bu g1x g1h b1x b1h g2x g2h b2x b2h dx dh X H WgT WgB WuT WuB p]
  rw [rowsum_apply, rowsum_apply]
  simp only [mulf_apply, pay19_apply bg bu g1x g1h b1x b1h g2x g2h b2x b2h dx dh X H WgT WgB WuT WuB p]
  rfl

/-- THE SECOND STORE's value at (p, q): the row function of row `p`. -/
theorem bottom_apply (bg : FVec Ideal S2048 .f32) (bu g1x g1h b1x b1h g2x g2h b2x b2h dx dh : FVec Ideal S1024 .f32)
    (X H : FVec Ideal S128x1024 .f32) (WgT WgB : FVec Ideal S1024x2048 .bf16) (WuT WuB : FVec Ideal S1024x1024 .bf16) (p : Fin 128) (q : Fin 1024) :
    k0_pay23 (F := Ideal) bu g2x g2h b2x b2h dx dh X H (k0_pay18 bg b1h dx dh (k0_pay14 g1x b1x X H) (k0_pay15 X H) (k0_pay16 g1h) WgT WgB) (k0_pay19 bg b1h dx dh H (k0_pay14 g1x b1x X H) (k0_pay15 X H) (k0_pay16 g1h) WgT WgB) (k0_pay20 bg b1h dx dh X H (k0_pay14 g1x b1x X H) (k0_pay15 X H) (k0_pay16 g1h) WgT WgB) (k0_pay21 bg b1h dx dh X H (k0_pay14 g1x b1x X H) (k0_pay15 X H) (k0_pay16 g1h) WgT WgB) k0_pay22 WuT WuB (ix2 p q) = rowS (halvesOf bg bu g1x g1h b1x b1h g2x g2h b2x b2h dx dh WgT WgB WuT WuB) (trow X p) (trow H p) q := by
  unfold k0_pay23 k0_pay22
  simp only [addf_apply, mulf_apply, subf_apply, truncf_apply, rsqrt_apply, tanh_apply, broadcast_apply, colspread_apply,
    rowspread_apply, matmul1024_apply, shapeCast_self,
    pay18_apply bg bu g1x g1h b1x b1h g2x g2h b2x b2h dx dh X H WgT WgB WuT WuB p,
    pay19_apply bg bu g1x g1h b1x b1h g2x g2h b2x b2h dx dh X H WgT WgB WuT WuB p,
    pay20_apply bg bu g1x g1h b1x b1h g2x g2h b2x b2h dx dh X H WgT WgB WuT WuB p,
    pay21_apply bg bu g1x g1h b1x b1h g2x g2h b2x b2h dx dh X H WgT WgB WuT WuB p]
  rfl

end Cert.KernelIdeal.RowValue

end
-- ==== Proof.Block.lean ====
/-
  What the body leaves in a block's staging buffer, as ONE function of the staged blocks. The body stores twice: rows
  0–127 and rows 128–255 of the [256, 1024] block, each the row function (RowSpec.lean) of the matching rows of the `x`
  and `h` blocks. The parameters it loads in halves — the first and the last 1024 entries of each 2048-entry vector, the
  upper and the lower 1024 rows of each matrix — are the halves of the parameters read whole. So entry (r, q) of the
  block is the row function of row `r`, for every `r` below 256.
-/
import proofs.«127600_j25391846654706_2_alg».proof.Proof.Gen.KernelIdeal.Frame
import proofs.«127600_j25391846654706_2_alg».proof.Proof.KernelRow0
import proofs.«127600_j25391846654706_2_alg».proof.Proof.KernelRow1

noncomputable section

namespace Cert.KernelIdeal.RowValue

open Cert.KernelIdeal Cert.KernelIdeal.Gen Idealize.ShloMosaic Idealize.ShloMosaic.ValueIdx
open Cert.GatedRow

/-! ## The body's loads at coordinates -/

theorem ld_whole2048 (x : Vec Ideal S2048 .f32) (j : Fin 2048) : View.ld (Val := Elt Ideal) x r0_0 (ix1 j) = x (ix1 j) :=
  congrArg x (funext fun a => Fin.ext (by
    match a with
    | ⟨0, _⟩ => show 0 + 1 * j.val = j.val; omega))

theorem ld_whole1024 (x : Vec Ideal S1024 .f32) (k : Fin 1024) : View.ld (Val := Elt Ideal) x r0_1 (ix1 k) = x (ix1 k) :=
  congrArg x (funext fun a => Fin.ext (by
    match a with
    | ⟨0, _⟩ => show 0 + 1 * k.val = k.val; omega))

theorem ld_lo (x : Vec Ideal S2048 .f32) (k : Fin 1024) : View.ld (Val := Elt Ideal) x r0_2 (ix1 k) = x (ix1 (lo k)) :=
  congrArg x (funext fun a => Fin.ext (by
    match a with
    | ⟨0, _⟩ => show 0 + 1 * k.val = k.val; omega))

theorem ld_hi (x : Vec Ideal S2048 .f32) (k : Fin 1024) : View.ld (Val := Elt Ideal) x r0_3 (ix1 k) = x (ix1 (hi k)) :=
  congrArg x (funext fun a => Fin.ext (by
    match a with
    | ⟨0, _⟩ => show 1024 + 1 * k.val = 1024 + k.val; omega))

theorem ld_WgT (x : Vec Ideal S2048x2048 .bf16) (k : Fin 1024) (j : Fin 2048) :
    View.ld (Val := Elt Ideal) x r0_5 (ix2 k j) = x (ix2 (lo k) j) :=
  congrArg x (funext fun a => Fin.ext (by
    match a with
    | ⟨0, _⟩ => show 0 + 1 * k.val = k.val; omega
    | ⟨1, _⟩ => show 0 + 1 * j.val = j.val; omega))

theorem ld_WgB (x : Vec Ideal S2048x2048 .bf16) (k : Fin 1024) (j : Fin 2048) :
    View.ld (Val := Elt Ideal) x r0_6 (ix2 k j) = x (ix2 (hi k) j) :=
  congrArg x (funext fun a => Fin.ext (by
    match a with
    | ⟨0, _⟩ => show 1024 + 1 * k.val = 1024 + k.val; omega
    | ⟨1, _⟩ => show 0 + 1 * j.val = j.val; omega))

theorem ld_WuT (x : Vec Ideal S2048x1024 .bf16) (k q : Fin 1024) : View.ld (Val := Elt Ideal) x r0_7 (ix2 k q) = x (ix2 (lo k) q) :=
  congrArg x (funext fun a => Fin.ext (by
    match a with
    | ⟨0, _⟩ => show 0 + 1 * k.val = k.val; omega
    | ⟨1, _⟩ => show 0 + 1 * q.val = q.val; omega))

theorem ld_WuB (x : Vec Ideal S2048x1024 .bf16) (k q : Fin 1024) : View.ld (Val := Elt Ideal) x r0_8 (ix2 k q) = x (ix2 (hi k) q) :=
  congrArg x (funext fun a => Fin.ext (by
    match a with
    | ⟨0, _⟩ => show 1024 + 1 * k.val = 1024 + k.val; omega
    | ⟨1, _⟩ => show 0 + 1 * q.val = q.val; omega))

/-- Row `p` of the block's first 128 rows, as a row of the block. -/
def top (p : Fin 128) : Fin 256 := ⟨p.val, by omega⟩
/-- Row `p` of the block's last 128 rows, as a row of the block. -/
def bot (p : Fin 128) : Fin 256 := ⟨128 + p.val, by omega⟩

theorem ld_top (x : Vec Ideal S256x1024 .f32) (p : Fin 128) (k : Fin 1024) :
    View.ld (Val := Elt Ideal) x r0_4 (ix2 p k) = x (ix2 (top p) k) :=
  congrArg x (funext fun a => Fin.ext (by
    match a with
    | ⟨0, _⟩ => show 0 + 1 * p.val = p.val; omega
    | ⟨1, _⟩ => show 0 + 1 * k.val = k.val; omega))

theorem ld_bot (x : Vec Ideal S256x1024 .f32) (p : Fin 128) (k : Fin 1024) :
    View.ld (Val := Elt Ideal) x r0_9 (ix2 p k) = x (ix2 (bot p) k) :=
  congrArg x (funext fun a => Fin.ext (by
    match a with
    | ⟨0, _⟩ => show 128 + 1 * p.val = 128 + p.val; omega
    | ⟨1, _⟩ => show 0 + 1 * k.val = k.val; omega))

/-- The parameters loaded in halves are the halves of the parameters read whole. -/
theorem halves_loads (x2 : Vec Ideal S2048x2048 .bf16) (x3 : Vec Ideal S2048 .f32)
    (x4 : Vec Ideal S2048x1024 .bf16) (x5 : Vec Ideal S1024 .f32) (x6 x7 x8 x9 x10 : Vec Ideal S2048 .f32) :
    halvesOf (View.ld (Val := Elt Ideal) x3 r0_0) (View.ld (Val := Elt Ideal) x5 r0_1) (View.ld (Val := Elt Ideal) x6 r0_2) (View.ld (Val := Elt Ideal) x6 r0_3) (View.ld (Val := Elt Ideal) x7 r0_2) (View.ld (Val := Elt Ideal) x7 r0_3) (View.ld (Val := Elt Ideal) x8 r0_2) (View.ld (Val := Elt Ideal) x8 r0_3) (View.ld (Val := Elt Ideal) x9 r0_2) (View.ld (Val := Elt Ideal) x9 r0_3) (View.ld (Val := Elt Ideal) x10 r0_2) (View.ld (Val := Elt Ideal) x10 r0_3) (View.ld (Val := Elt Ideal) x2 r0_5) (View.ld (Val := Elt Ideal) x2 r0_6) (View.ld (Val := Elt Ideal) x4 r0_7) (View.ld (Val := Elt Ideal) x4 r0_8)
      = (wholeOf x2 x3 x4 x5 x6 x7 x8 x9 x10).halves := by
  unfold halvesOf Whole.halves wholeOf vec vec2 mat1 mat2
  congr 1
  all_goals first
    | exact funext (ld_lo _) | exact funext (ld_hi _) | exact funext (ld_whole2048 _) | exact funext (ld_whole1024 _)
    | exact funext fun k => funext (ld_WgT _ k) | exact funext fun k => funext (ld_WgB _ k)
    | exact funext fun k => funext (ld_WuT _ k) | exact funext fun k => funext (ld_WuB _ k)

/-- Entry (r, q) of a [256, 1024] block as the row function of the block's row `r`. -/
def blockFn (x0 x1 : FVec Ideal S256x1024 .f32) (P : Whole) (r : Fin 256) (q : Fin 1024) : EReal :=
  rowS P.halves (fun k => x0 (ix2 r k)) (fun k => x1 (ix2 r k)) q

/-- THE BLOCK after the body: its two stores are the row function on rows 0–127 and on rows 128–255. -/
theorem out_block (x0 x1 : Vec Ideal S256x1024 .f32) (x2 : Vec Ideal S2048x2048 .bf16) (x3 : Vec Ideal S2048 .f32)
    (x4 : Vec Ideal S2048x1024 .bf16) (x5 : Vec Ideal S1024 .f32) (x6 x7 x8 x9 x10 : Vec Ideal S2048 .f32) (y : S256x1024.Idx) :
    (out0_11 (F := Ideal) x0 x1 x2 x3 x4 x5 x6 x7 x8 x9 x10 y : EReal)
      = blockFn x0 x1 (wholeOf x2 x3 x4 x5 x6 x7 x8 x9 x10) (y 0) (y 1) := by
  unfold out0_11
  refine View.canon_apply_of_pieces (Val := Elt Ideal) (e := .f32) (fun y : S256x1024.Idx => blockFn x0 x1 (wholeOf x2 x3 x4 x5 x6 x7 x8 x9 x10) (y 0) (y 1))
    _ ?_ y (cover0_11 _ _ y)
  intro pc hpc x
  rcases List.mem_cons.mp hpc with rfl | hpc
  · obtain ⟨p, q, rfl⟩ : ∃ (p : Fin 128) (q : Fin 1024), x = ix2 p q := ⟨x 0, x 1, eq_ix2 (n0 := 128) (n1 := 1024) x⟩
    refine (bottom_apply _ _ _ _ _ _ _ _ _ _ _ _ _ _ _ _ _ _ p q).trans ?_
    rw [halves_loads]
    have hemb : r0_9.emb (ix2 p q) = ix2 (bot p) q := funext fun a => Fin.ext (by
      match a with
      | ⟨0, _⟩ => show 128 + 1 * p.val = 128 + p.val; omega
      | ⟨1, _⟩ => show 0 + 1 * q.val = q.val; omega)
    show _ = blockFn x0 x1 _ ((r0_9.emb (ix2 p q)) 0) ((r0_9.emb (ix2 p q)) 1)
    rw [hemb]
    show rowS _ (trow (View.ld (Val := Elt Ideal) x0 r0_9) p) (trow (View.ld (Val := Elt Ideal) x1 r0_9) p) q
      = rowS _ (fun k => x0 (ix2 (bot p) k)) (fun k => x1 (ix2 (bot p) k)) q
    rw [show trow (View.ld (Val := Elt Ideal) x0 r0_9) p = fun k => x0 (ix2 (bot p) k) from funext fun k => ld_bot x0 p k,
      show trow (View.ld (Val := Elt Ideal) x1 r0_9) p = fun k => x1 (ix2 (bot p) k) from funext fun k => ld_bot x1 p k]
  · obtain rfl := List.mem_singleton.mp hpc
    obtain ⟨p, q, rfl⟩ : ∃ (p : Fin 128) (q : Fin 1024), x = ix2 p q := ⟨x 0, x 1, eq_ix2 (n0 := 128) (n1 := 1024) x⟩
    refine (top_apply _ _ _ _ _ _ _ _ _ _ _ _ _ _ _ _ _ _ p q).trans ?_
    rw [halves_loads]
    have hemb : r0_4.emb (ix2 p q) = ix2 (top p) q := funext fun a => Fin.ext (by
      match a with
      | ⟨0, _⟩ => show 0 + 1 * p.val = p.val; omega
      | ⟨1, _⟩ => show 0 + 1 * q.val = q.val; omega)
    show _ = blockFn x0 x1 _ ((r0_4.emb (ix2 p q)) 0) ((r0_4.emb (ix2 p q)) 1)
    rw [hemb]
    show rowS _ (trow (View.ld (Val := Elt Ideal) x0 r0_4) p) (trow (View.ld (Val := Elt Ideal) x1 r0_4) p) q
      = rowS _ (fun k => x0 (ix2 (top p) k)) (fun k => x1 (ix2 (top p) k)) q
    rw [show trow (View.ld (Val := Elt Ideal) x0 r0_4) p = fun k => x0 (ix2 (top p) k) from funext fun k => ld_top x0 p k,
      show trow (View.ld (Val := Elt Ideal) x1 r0_4) p = fun k => x1 (ix2 (top p) k) from funext fun k => ld_top x1 p k]

end Cert.KernelIdeal.RowValue

end
-- ==== Proof.ArrayValue.lean ====
/-
  From blocks to the array. Grid point `t` stages block `t` of `x`, of `h` and of the output — rows 256·t … 256·t + 255,
  all 1024 columns — and, at every point, the whole of each parameter array. So what point `t` writes back is block `t`
  of ONE array: entry (r, q) is the row function (RowSpec.lean) of row `r` of `x` and of `h`. The 64 blocks fill the
  [16384, 1024] output, so after the run the output IS that array. The two matrices reach the region through a change of
  float format on the host, which at the exact instance is the identity.
-/
import proofs.«127600_j25391846654706_2_alg».proof.Proof.Gen.KernelIdeal.Value
import proofs.«127600_j25391846654706_2_alg».proof.Proof.Block
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.GatedRow Cert.KernelIdeal.RowValue

variable (m : (ℓ : Loc nD τ sig) → Buf (Elt Ideal) ℓ) (ρ : Dev nD → PrngReg)

/-! ## The index maps over the 64 grid points -/

/-- The output's block index: at most 63 along the rows, 0 along the columns. -/
theorem idx_out : ∀ t : Fin cfg0.N, win0_11.index t (0 : Fin 2) ≤ 63 ∧ win0_11.index t (1 : Fin 2) = 0 :=
  (by decide +kernel : ∀ t : Fin grid0.N, _)

/-- The `x` and `h` blocks move with the output's. -/
theorem idx_in : ∀ t : Fin cfg0.N, win0_0.index t (0 : Fin 2) = win0_11.index t (0 : Fin 2) ∧ win0_0.index t (1 : Fin 2) = 0
    ∧ win0_1.index t (0 : Fin 2) = win0_11.index t (0 : Fin 2) ∧ win0_1.index t (1 : Fin 2) = 0 :=
  (by decide +kernel : ∀ t : Fin grid0.N, _)

/-- Every parameter's block is its whole array, at every point. -/
theorem idx_par : ∀ t : Fin cfg0.N, win0_2.index t (0 : Fin 2) = 0 ∧ win0_2.index t (1 : Fin 2) = 0
    ∧ win0_3.index t (0 : Fin 1) = 0 ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 1) = 0 ∧ win0_9.index t (0 : Fin 1) = 0 ∧ win0_10.index t (0 : Fin 1) = 0 :=
  (by decide +kernel : ∀ t : Fin grid0.N, _)

/-- Every block of rows is some point's. -/
theorem idx_onto : ∀ b : Fin 64, ∃ t : Fin cfg0.N, win0_11.index t = ![b.val, 0] :=
  (by decide +kernel : ∀ b : Fin 64, ∃ t : Fin grid0.N, win0_11.index t = ![b.val, 0])

/-- Row `r` of point `t`'s block, as a row of the array. -/
def grow (t : Fin cfg0.N) (r : Fin 256) : Fin 16384 :=
  ⟨win0_11.index t (0 : Fin 2) * 256 + r.val, by have h := (idx_out t).1; have := r.isLt; omega⟩

/-! ## Block reads as array reads -/

/-- Entry (r, q) of the output's block at `t` sits at (256·t + r, q) of the array. -/
theorem emb_out (t : Fin cfg0.N) (r : Fin 256) (q : Fin 1024) :
    (((cfg0.win 11).blk t).view.emb (ix2 r q) : S16384x1024.Idx) = ix2 (grow t r) q := by
  obtain ⟨_, e1⟩ := idx_out t
  funext a; apply Fin.ext
  match a with
  | ⟨0, _⟩ => show win0_11.index t (0 : Fin 2) * 256 + 1 * r.val = win0_11.index t (0 : Fin 2) * 256 + r.val; omega
  | ⟨1, _⟩ => show win0_11.index t (1 : Fin 2) * 1024 + 1 * q.val = q.val; omega

theorem read_x (c : Dev nD) (t : Fin cfg0.N) (r : Fin 256) (k : Fin 1024) :
    iblk m c 0 t (ix2 r k) = V m c main_arg0 (ix2 (grow t r) k) := by
  obtain ⟨e0, e1, _, _⟩ := idx_in t
  show V m c main_arg0 (((cfg0.win 0).blk t).view.emb (ix2 r k)) = V m c main_arg0 (ix2 (grow t r) k)
  refine congrArg (V m c main_arg0) (funext fun a => Fin.ext ?_)
  match a with
  | ⟨0, _⟩ => show win0_0.index t (0 : Fin 2) * 256 + 1 * r.val = win0_11.index t (0 : Fin 2) * 256 + r.val; omega
  | ⟨1, _⟩ => show win0_0.index t (1 : Fin 2) * 1024 + 1 * k.val = k.val; omega

theorem read_h (c : Dev nD) (t : Fin cfg0.N) (r : Fin 256) (k : Fin 1024) :
    iblk m c 1 t (ix2 r k) = V m c main_arg1 (ix2 (grow t r) k) := by
  obtain ⟨_, _, e0, e1⟩ := idx_in t
  show V m c main_arg1 (((cfg0.win 1).blk t).view.emb (ix2 r k)) = V m c main_arg1 (ix2 (grow t r) k)
  refine congrArg (V m c main_arg1) (funext fun a => Fin.ext ?_)
  match a with
  | ⟨0, _⟩ => show win0_1.index t (0 : Fin 2) * 256 + 1 * r.val = win0_11.index t (0 : Fin 2) * 256 + r.val; omega
  | ⟨1, _⟩ => show win0_1.index t (1 : Fin 2) * 1024 + 1 * k.val = k.val; omega

theorem read_Wg (c : Dev nD) (t : Fin cfg0.N) : (iblk m c 2 t : S2048x2048.Idx → EReal) = V m c main_v0 := by
  obtain ⟨e20, e21, e3, e40, e41, e5, e6, e7, e8, e9, e10⟩ := idx_par t
  funext z
  show V m c main_v0 (((cfg0.win 2).blk t).view.emb z) = V m c main_v0 z
  refine congrArg (V m c main_v0) (funext fun a => Fin.ext ?_)
  match a with
    | ⟨0, _⟩ => show win0_2.index t (0 : Fin 2) * 2048 + 1 * (z 0).val = (z 0).val; omega
    | ⟨1, _⟩ => show win0_2.index t (1 : Fin 2) * 2048 + 1 * (z 1).val = (z 1).val; omega

theorem read_bg (c : Dev nD) (t : Fin cfg0.N) : (iblk m c 3 t : S2048.Idx → EReal) = V m c main_arg3 := by
  obtain ⟨e20, e21, e3, e40, e41, e5, e6, e7, e8, e9, e10⟩ := idx_par t
  funext z
  show V m c main_arg3 (((cfg0.win 3).blk t).view.emb z) = V m c main_arg3 z
  refine congrArg (V m c main_arg3) (funext fun a => Fin.ext ?_)
  match a with
    | ⟨0, _⟩ => show win0_3.index t (0 : Fin 1) * 2048 + 1 * (z 0).val = (z 0).val; omega

theorem read_Wu (c : Dev nD) (t : Fin cfg0.N) : (iblk m c 4 t : S2048x1024.Idx → EReal) = V m c main_v1 := by
  obtain ⟨e20, e21, e3, e40, e41, e5, e6, e7, e8, e9, e10⟩ := idx_par t
  funext z
  show V m c main_v1 (((cfg0.win 4).blk t).view.emb z) = V m c main_v1 z
  refine congrArg (V m c main_v1) (funext fun a => Fin.ext ?_)
  match a with
    | ⟨0, _⟩ => show win0_4.index t (0 : Fin 2) * 2048 + 1 * (z 0).val = (z 0).val; omega
    | ⟨1, _⟩ => show win0_4.index t (1 : Fin 2) * 1024 + 1 * (z 1).val = (z 1).val; omega

theorem read_bu (c : Dev nD) (t : Fin cfg0.N) : (iblk m c 5 t : S1024.Idx → EReal) = V m c main_arg5 := by
  obtain ⟨e20, e21, e3, e40, e41, e5, e6, e7, e8, e9, e10⟩ := idx_par t
  funext z
  show V m c main_arg5 (((cfg0.win 5).blk t).view.emb z) = V m c main_arg5 z
  refine congrArg (V m c main_arg5) (funext fun a => Fin.ext ?_)
  match a with
    | ⟨0, _⟩ => show win0_5.index t (0 : Fin 1) * 1024 + 1 * (z 0).val = (z 0).val; omega

theorem read_g1 (c : Dev nD) (t : Fin cfg0.N) : (iblk m c 6 t : S2048.Idx → EReal) = V m c main_arg6 := by
  obtain ⟨e20, e21, e3, e40, e41, e5, e6, e7, e8, e9, e10⟩ := idx_par t
  funext z
  show V m c main_arg6 (((cfg0.win 6).blk t).view.emb z) = V m c main_arg6 z
  refine congrArg (V m c main_arg6) (funext fun a => Fin.ext ?_)
  match a with
    | ⟨0, _⟩ => show win0_6.index t (0 : Fin 1) * 2048 + 1 * (z 0).val = (z 0).val; omega

theorem read_b1 (c : Dev nD) (t : Fin cfg0.N) : (iblk m c 7 t : S2048.Idx → EReal) = V m c main_arg7 := by
  obtain ⟨e20, e21, e3, e40, e41, e5, e6, e7, e8, e9, e10⟩ := idx_par t
  funext z
  show V m c main_arg7 (((cfg0.win 7).blk t).view.emb z) = V m c main_arg7 z
  refine congrArg (V m c main_arg7) (funext fun a => Fin.ext ?_)
  match a with
    | ⟨0, _⟩ => show win0_7.index t (0 : Fin 1) * 2048 + 1 * (z 0).val = (z 0).val; omega

theorem read_g2 (c : Dev nD) (t : Fin cfg0.N) : (iblk m c 8 t : S2048.Idx → EReal) = V m c main_arg8 := by
  obtain ⟨e20, e21, e3, e40, e41, e5, e6, e7, e8, e9, e10⟩ := idx_par t
  funext z
  show V m c main_arg8 (((cfg0.win 8).blk t).view.emb z) = V m c main_arg8 z
  refine congrArg (V m c main_arg8) (funext fun a => Fin.ext ?_)
  match a with
    | ⟨0, _⟩ => show win0_8.index t (0 : Fin 1) * 2048 + 1 * (z 0).val = (z 0).val; omega

theorem read_b2 (c : Dev nD) (t : Fin cfg0.N) : (iblk m c 9 t : S2048.Idx → EReal) = V m c main_arg9 := by
  obtain ⟨e20, e21, e3, e40, e41, e5, e6, e7, e8, e9, e10⟩ := idx_par t
  funext z
  show V m c main_arg9 (((cfg0.win 9).blk t).view.emb z) = V m c main_arg9 z
  refine congrArg (V m c main_arg9) (funext fun a => Fin.ext ?_)
  match a with
    | ⟨0, _⟩ => show win0_9.index t (0 : Fin 1) * 2048 + 1 * (z 0).val = (z 0).val; omega

theorem read_d (c : Dev nD) (t : Fin cfg0.N) : (iblk m c 10 t : S2048.Idx → EReal) = V m c main_arg10 := by
  obtain ⟨e20, e21, e3, e40, e41, e5, e6, e7, e8, e9, e10⟩ := idx_par t
  funext z
  show V m c main_arg10 (((cfg0.win 10).blk t).view.emb z) = V m c main_arg10 z
  refine congrArg (V m c main_arg10) (funext fun a => Fin.ext ?_)
  match a with
    | ⟨0, _⟩ => show win0_10.index t (0 : Fin 1) * 2048 + 1 * (z 0).val = (z 0).val; omega

/-! ## What a point writes back -/

/-- The parameters as the region finds them. -/
def par (c : Dev nD) : Whole :=
  wholeOf (V m c main_v0) (V m c main_arg3) (V m c main_v1) (V m c main_arg5) (V m c main_arg6) (V m c main_arg7)
    (V m c main_arg8) (V m c main_arg9) (V m c main_arg10)

/-- The output array as one function of the arrays the region finds. -/
def regionOut (c : Dev nD) : S16384x1024.Idx → EReal :=
  fun i => outS (V m c main_arg0) (V m c main_arg1) (par m c) (i 0) (i 1)

/-- WHAT POINT `t` WRITES BACK is block `t` of that array. -/
theorem flushed_eq (c : Dev nD) (t : Fin cfg0.N) :
    (dats m 0 c).flushed 11 t = ((cfg0.win 11).blk t).view.read (Elt Ideal) (regionOut m c) := by
  rw [Value.flushed11]
  funext y
  obtain ⟨r, q, rfl⟩ : ∃ (r : Fin 256) (q : Fin 1024), y = ix2 r q := ⟨y 0, y 1, eq_ix2 (n0 := 256) (n1 := 1024) y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r q)
    = regionOut m c (((cfg0.win 11).blk t).view.emb (ix2 r q))
  rw [out_block, emb_out]
  show blockFn (iblk m c 0 t) (iblk m c 1 t)
      (wholeOf (iblk m c 2 t) (iblk m c 3 t) (iblk m c 4 t) (iblk m c 5 t) (iblk m c 6 t) (iblk m c 7 t) (iblk m c 8 t)
        (iblk m c 9 t) (iblk m c 10 t)) r q
    = outS (V m c main_arg0) (V m c main_arg1) (par m c) (grow t r) q
  rw [read_Wg, read_bg, read_Wu, read_bu, read_g1, read_b1, read_g2, read_b2, read_d]
  unfold blockFn outS rowOf par
  rw [show (fun k => iblk m c 0 t (ix2 r k)) = fun k => V m c main_arg0 (ix2 (grow t r) k) from funext (read_x m c t r),
    show (fun k => iblk m c 1 t (ix2 r k)) = fun k => V m c main_arg1 (ix2 (grow t r) k) from funext (read_h m c t r)]

/-! ## The cover -/

theorem mem_blk (t : Fin cfg0.N) (i : S16384x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v2).slice (win0_11.rect t)).set ↔ _
  rw [View.set_slice_whole, Rect.mem_set_unit]
  exact Iff.rfl

/-- Every entry of the output lies in the block of the point that owns its 256 rows. -/
theorem cover (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  obtain ⟨t, ht⟩ := idx_onto ⟨(i 0).val / 256, by omega⟩
  have q0 : win0_11.index t (0 : Fin 2) = (i 0).val / 256 := congrFun ht 0
  have q1 : win0_11.index t (1 : Fin 2) = 0 := congrFun ht 1
  refine ⟨t, flush0_11 t, ?_⟩
  rw [mem_blk]
  intro a
  match a with
  | ⟨0, _⟩ =>
    show win0_11.index t (0 : Fin 2) * 256 ≤ (i 0).val ∧ (i 0).val < win0_11.index t (0 : Fin 2) * 256 + 256
    omega
  | ⟨1, _⟩ =>
    show win0_11.index t (1 : Fin 2) * 1024 ≤ (i 1).val ∧ (i 1).val < win0_11.index t (1 : Fin 2) * 1024 + 1024
    omega

/-! ## The host's change of format, and the array after the run -/

/-- The gate's matrix reaches the region unchanged: a change of float format is the identity on extended reals. -/
theorem V_Wg (c : Dev nD) : (V m c main_v0 : S2048x2048.Idx → EReal) = m ((c : Thread nD τ).loc main_arg2) := by
  dsimp only [Gen.V, Gen.hostOps0]; after_results; rfl

/-- So does the candidate's. -/
theorem V_Wu (c : Dev nD) : (V m c main_v1 : S2048x1024.Idx → EReal) = m ((c : Thread nD τ).loc main_arg4) := by
  dsimp only [Gen.V, Gen.hostOps0]; after_results; rfl

/-- The result as one function of the eleven arrays the program is launched on. -/
def kernelOut (c : Dev nD) : S16384x1024.Idx → EReal :=
  fun i => outS (m ((c : Thread nD τ).loc main_arg0)) (m ((c : Thread nD τ).loc main_arg1))
    (wholeOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (i 0) (i 1)

/-- THE ARRAY after the run. -/
theorem final (c : Dev nD) : (dats m 0 c).arrAt 11 cfg0.N = kernelOut m c := by
  rw [(dats m 0 c).arrAt_eq_of_cover 11 (regionOut m c) (fun t _ => flushed_eq m c t) cover]
  unfold regionOut kernelOut par
  rw [V_main_arg0, V_main_arg1, V_Wg, V_main_arg3, V_Wu, V_main_arg5, V_main_arg6, V_main_arg7, V_main_arg8, V_main_arg9,
    V_main_arg10]

/-- The run, read: the result array is that function of the arguments, and the arguments are unchanged. -/
theorem run : θ_run defs (onTc (τ := τ) (main (F := Ideal))) ⟨m, fun _ => 0, ρ⟩ fun r => ∀ c : Dev nD,
      r.2.mem ((c : Thread nD τ).loc main_v2) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.RefRow.lean ====
/-
  The reference program, read at one row.

  The reference computes the gated recurrent update on whole arrays: it joins `x` and `h` along the lanes, takes each
  row's mean and reciprocal deviation, normalises, contracts with the gate's matrix, applies the logistic function to
  the two halves of the result, resets `h`, joins again, normalises again, contracts with the candidate's matrix, and
  mixes. Every one of its operations acts row by row: an elementwise operation reads its operands at the same
  position, a row sum and a contraction read one row of the left operand, and a broadcast of a column or of a
  parameter vector reads the column at the row or the vector at the lane. So the value of each stage at a position
  `(r, ·)` is a function of row `r` of `x` and of `h` and of the parameters alone, and this file names that function,
  stage by stage, as the corresponding quantity of the joined arrangement of the row function: the joined vector,
  its mean, its reciprocal deviation, the normalised entries, the gate's pre-activations, the two logistic values,
  the reset half, the second statistics, the candidate, and the result.
-/
import proofs.«127600_j25391846654706_2_alg».proof.Proof.Gen.ReferenceIdeal.Read
import proofs.«127600_j25391846654706_2_alg».proof.Proof.Params
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open Cert.GatedRow
open scoped BigOperators

/-! ## A join of two [16384, 1024] arrays along the lanes, read at (r, k)

Lane `k` below 1024 is lane `k` of the first array; from 1024 on it is lane `k − 1024` of the second. -/

theorem concat_apply (X Y : (⟨S16384x1024, .f32⟩ : BufTy).Contents (Elt Ideal))
    (h : Shape.Concatenates [S16384x1024, S16384x1024] S16384x2048 1) (r : Fin 16384) (k : Fin 2048) :
    concatenate S16384x2048 1 [⟨S16384x1024, X⟩, ⟨S16384x1024, Y⟩] h (ix2 r k) = cat (rowOf X r) (rowOf Y r) k := by
  unfold cat
  by_cases hk : k.val < 1024
  · rw [dif_pos hk]
    exact concatenate_pair_apply_left 1 X Y h (ix2 r k) rfl (ix2 r ⟨k.val, hk⟩) (fun b => by
      match b with
      | ⟨0, _⟩ => rfl
      | ⟨1, _⟩ => rfl)
  · rw [dif_neg hk]
    exact concatenate_pair_apply_right 1 X Y h (ix2 r k) rfl rfl (ix2 r ⟨k.val - 1024, by omega⟩)
      (fun b hb => by
        match b with
        | ⟨0, _⟩ => rfl
        | ⟨1, _⟩ => exact absurd rfl hb)
      (by show (k.val - 1024) + 1024 = k.val; omega)

/-! ## Where each layout operation reads its operand, in coordinates

A row sum at row `r` runs over the positions `(r, k)`; a vector of row sums kept as a column is read at the row; a
column broadcast along the lanes is read at `(r, 0)`; a parameter vector laid along the lanes and repeated down the
rows is read at the lane; the first half of the lanes is read at `lo q`, the second at `hi q`; the contraction of row
`r` with column `j` pairs `(r, k)` with `(k, j)`. -/

theorem idx1 (r : Fin 16384) (k : Fin 2048) : Read.idx_main_v1 (ix1 r) k = ix2 r k :=
  funext fun a => Fin.ext (by match a with | ⟨0, _⟩ => rfl | ⟨1, _⟩ => rfl)
theorem idx8 (r : Fin 16384) (k : Fin 2048) : Read.idx_main_v8 (ix1 r) k = ix2 r k :=
  funext fun a => Fin.ext (by match a with | ⟨0, _⟩ => rfl | ⟨1, _⟩ => rfl)
theorem idx48 (r : Fin 16384) (k : Fin 2048) : Read.idx_main_v48 (ix1 r) k = ix2 r k :=
  funext fun a => Fin.ext (by match a with | ⟨0, _⟩ => rfl | ⟨1, _⟩ => rfl)
theorem idx55 (r : Fin 16384) (k : Fin 2048) : Read.idx_main_v55 (ix1 r) k = ix2 r k :=
  funext fun a => Fin.ext (by match a with | ⟨0, _⟩ => rfl | ⟨1, _⟩ => rfl)
theorem idx2 (r : Fin 16384) (u : Fin 1) : Read.idx_main_v2 (ix2 r u) = ix1 r :=
  funext fun a => Fin.ext (by match a with | ⟨0, _⟩ => rfl)
theorem idx9 (r : Fin 16384) (u : Fin 1) : Read.idx_main_v9 (ix2 r u) = ix1 r :=
  funext fun a => Fin.ext (by match a with | ⟨0, _⟩ => rfl)
theorem idx49 (r : Fin 16384) (u : Fin 1) : Read.idx_main_v49 (ix2 r u) = ix1 r :=
  funext fun a => Fin.ext (by match a with | ⟨0, _⟩ => rfl)
theorem idx56 (r : Fin 16384) (u : Fin 1) : Read.idx_main_v56 (ix2 r u) = ix1 r :=
  funext fun a => Fin.ext (by match a with | ⟨0, _⟩ => rfl)
theorem idx5 (r : Fin 16384) (k : Fin 2048) : Read.idx_main_v5 (ix2 r k) = ix2 r (0 : Fin 1) :=
  funext fun a => Fin.ext (by match a with | ⟨0, _⟩ => rfl | ⟨1, _⟩ => rfl)
theorem idx12 (r : Fin 16384) (k : Fin 2048) : Read.idx_main_v12 (ix2 r k) = ix2 r (0 : Fin 1) :=
  funext fun a => Fin.ext (by match a with | ⟨0, _⟩ => rfl | ⟨1, _⟩ => rfl)
theorem idx17 (r : Fin 16384) (k : Fin 2048) : Read.idx_main_v17 (ix2 r k) = ix2 r (0 : Fin 1) :=
  funext fun a => Fin.ext (by match a with | ⟨0, _⟩ => rfl | ⟨1, _⟩ => rfl)
theorem idx52 (r : Fin 16384) (k : Fin 2048) : Read.idx_main_v52 (ix2 r k) = ix2 r (0 : Fin 1) :=
  funext fun a => Fin.ext (by match a with | ⟨0, _⟩ => rfl | ⟨1, _⟩ => rfl)
theorem idx59 (r : Fin 16384) (k : Fin 2048) : Read.idx_main_v59 (ix2 r k) = ix2 r (0 : Fin 1) :=
  funext fun a => Fin.ext (by match a with | ⟨0, _⟩ => rfl | ⟨1, _⟩ => rfl)
theorem idx64 (r : Fin 16384) (k : Fin 2048) : Read.idx_main_v64 (ix2 r k) = ix2 r (0 : Fin 1) :=
  funext fun a => Fin.ext (by match a with | ⟨0, _⟩ => rfl | ⟨1, _⟩ => rfl)
theorem idx19 (k : Fin 2048) : Read.idx_main_v19 (ix2 (0 : Fin 1) k) = ix1 k :=
  funext fun a => Fin.ext (by match a with | ⟨0, _⟩ => rfl)
theorem idx22 (k : Fin 2048) : Read.idx_main_v22 (ix2 (0 : Fin 1) k) = ix1 k :=
  funext fun a => Fin.ext (by match a with | ⟨0, _⟩ => rfl)
theorem idx25 (k : Fin 2048) : Read.idx_main_v25 (ix2 (0 : Fin 1) k) = ix1 k :=
  funext fun a => Fin.ext (by match a with | ⟨0, _⟩ => rfl)
theorem idx29 (k : Fin 2048) : Read.idx_main_v29 (ix2 (0 : Fin 1) k) = ix1 k :=
  funext fun a => Fin.ext (by match a with | ⟨0, _⟩ => rfl)
theorem idx66 (k : Fin 2048) : Read.idx_main_v66 (ix2 (0 : Fin 1) k) = ix1 k :=
  funext fun a => Fin.ext (by match a with | ⟨0, _⟩ => rfl)
theorem idx69 (k : Fin 2048) : Read.idx_main_v69 (ix2 (0 : Fin 1) k) = ix1 k :=
  funext fun a => Fin.ext (by match a with | ⟨0, _⟩ => rfl)
theorem idx72 (k : Fin 2048) : Read.idx_main_v72 (ix2 (0 : Fin 1) k) = ix1 k :=
  funext fun a => Fin.ext (by match a with | ⟨0, _⟩ => rfl)
theorem idx76 (k : Fin 1024) : Read.idx_main_v76 (ix2 (0 : Fin 1) k) = ix1 k :=
  funext fun a => Fin.ext (by match a with | ⟨0, _⟩ => rfl)
theorem idx20 (r : Fin 16384) (k : Fin 2048) : Read.idx_main_v20 (ix2 r k) = ix2 (0 : Fin 1) k :=
  funext fun a => Fin.ext (by match a with | ⟨0, _⟩ => rfl | ⟨1, _⟩ => rfl)
theorem idx23 (r : Fin 16384) (k : Fin 2048) : Read.idx_main_v23 (ix2 r k) = ix2 (0 : Fin 1) k :=
  funext fun a => Fin.ext (by match a with | ⟨0, _⟩ => rfl | ⟨1, _⟩ => rfl)
theorem idx26 (r : Fin 16384) (k : Fin 2048) : Read.idx_main_v26 (ix2 r k) = ix2 (0 : Fin 1) k :=
  funext fun a => Fin.ext (by match a with | ⟨0, _⟩ => rfl | ⟨1, _⟩ => rfl)
theorem idx30 (r : Fin 16384) (k : Fin 2048) : Read.idx_main_v30 (ix2 r k) = ix2 (0 : Fin 1) k :=
  funext fun a => Fin.ext (by match a with | ⟨0, _⟩ => rfl | ⟨1, _⟩ => rfl)
theorem idx67 (r : Fin 16384) (k : Fin 2048) : Read.idx_main_v67 (ix2 r k) = ix2 (0 : Fin 1) k :=
  funext fun a => Fin.ext (by match a with | ⟨0, _⟩ => rfl | ⟨1, _⟩ => rfl)
theorem idx70 (r : Fin 16384) (k : Fin 2048) : Read.idx_main_v70 (ix2 r k) = ix2 (0 : Fin 1) k :=
  funext fun a => Fin.ext (by match a with | ⟨0, _⟩ => rfl | ⟨1, _⟩ => rfl)
theorem idx73 (r : Fin 16384) (k : Fin 2048) : Read.idx_main_v73 (ix2 r k) = ix2 (0 : Fin 1) k :=
  funext fun a => Fin.ext (by match a with | ⟨0, _⟩ => rfl | ⟨1, _⟩ => rfl)
theorem idx77 (r : Fin 16384) (k : Fin 1024) : Read.idx_main_v77 (ix2 r k) = ix2 (0 : Fin 1) k :=
  funext fun a => Fin.ext (by match a with | ⟨0, _⟩ => rfl | ⟨1, _⟩ => rfl)
theorem idx32 (r : Fin 16384) (q : Fin 1024) : Read.idx_main_v32 (ix2 r q) = ix2 r (lo q) :=
  funext fun a => Fin.ext (by match a with | ⟨0, _⟩ => rfl | ⟨1, _⟩ => rfl)
theorem idx39 (r : Fin 16384) (q : Fin 1024) : Read.idx_main_v39 (ix2 r q) = ix2 r (hi q) :=
  funext fun a => Fin.ext (by match a with | ⟨0, _⟩ => rfl | ⟨1, _⟩ => rfl)
theorem lidx28 (r : Fin 16384) (j k : Fin 2048) : Read.lidx_main_v28 (ix2 r j) k = ix2 r k :=
  funext fun a => Fin.ext (by match a with | ⟨0, _⟩ => rfl | ⟨1, _⟩ => rfl)
theorem ridx28 (r : Fin 16384) (j k : Fin 2048) : Read.ridx_main_v28 (ix2 r j) k = ix2 k j :=
  funext fun a => Fin.ext (by match a with | ⟨0, _⟩ => rfl | ⟨1, _⟩ => rfl)
theorem lidx75 (r : Fin 16384) (q : Fin 1024) (k : Fin 2048) : Read.lidx_main_v75 (ix2 r q) k = ix2 r k :=
  funext fun a => Fin.ext (by match a with | ⟨0, _⟩ => rfl | ⟨1, _⟩ => rfl)
theorem ridx75 (r : Fin 16384) (q : Fin 1024) (k : Fin 2048) : Read.ridx_main_v75 (ix2 r q) k = ix2 k q :=
  funext fun a => Fin.ext (by match a with | ⟨0, _⟩ => rfl | ⟨1, _⟩ => rfl)

section
variable (x0 x1 : (⟨S16384x1024, .f32⟩ : BufTy).Contents (Elt Ideal)) (x2 : (⟨S2048x2048, .f32⟩ : BufTy).Contents (Elt Ideal))
  (x3 : (⟨S2048, .f32⟩ : BufTy).Contents (Elt Ideal)) (x4 : (⟨S2048x1024, .f32⟩ : BufTy).Contents (Elt Ideal))
  (x5 : (⟨S1024, .f32⟩ : BufTy).Contents (Elt Ideal)) (x6 x7 x8 x9 x10 : (⟨S2048, .f32⟩ : BufTy).Contents (Elt Ideal))
  (r : Fin 16384)

/-! ## A parameter vector laid along the lanes and repeated down the rows reads the vector at the lane -/

theorem v20_at (k : Fin 2048) : Read.val_main_v20 (F := Ideal) x6 (ix2 r k) = x6 (ix1 k) := by
  rw [Read.val_main_v20_apply, idx20, Read.val_main_v19_apply, idx19]
theorem v23_at (k : Fin 2048) : Read.val_main_v23 (F := Ideal) x7 (ix2 r k) = x7 (ix1 k) := by
  rw [Read.val_main_v23_apply, idx23, Read.val_main_v22_apply, idx22]
theorem v26_at (k : Fin 2048) : Read.val_main_v26 (F := Ideal) x10 (ix2 r k) = x10 (ix1 k) := by
  rw [Read.val_main_v26_apply, idx26, Read.val_main_v25_apply, idx25]
theorem v30_at (k : Fin 2048) : Read.val_main_v30 (F := Ideal) x3 (ix2 r k) = x3 (ix1 k) := by
  rw [Read.val_main_v30_apply, idx30, Read.val_main_v29_apply, idx29]
theorem v67_at (k : Fin 2048) : Read.val_main_v67 (F := Ideal) x8 (ix2 r k) = x8 (ix1 k) := by
  rw [Read.val_main_v67_apply, idx67, Read.val_main_v66_apply, idx66]
theorem v70_at (k : Fin 2048) : Read.val_main_v70 (F := Ideal) x9 (ix2 r k) = x9 (ix1 k) := by
  rw [Read.val_main_v70_apply, idx70, Read.val_main_v69_apply, idx69]
theorem v73_at (k : Fin 2048) : Read.val_main_v73 (F := Ideal) x10 (ix2 r k) = x10 (ix1 k) := by
  rw [Read.val_main_v73_apply, idx73, Read.val_main_v72_apply, idx72]
theorem v77_at (k : Fin 1024) : Read.val_main_v77 (F := Ideal) x5 (ix2 r k) = x5 (ix1 k) := by
  rw [Read.val_main_v77_apply, idx77, Read.val_main_v76_apply, idx76]

/-! ## The first statistics: the joined row, its mean, its reciprocal deviation -/

/-- The join of `x` and `h` at `(r, k)` is entry `k` of the joined row. -/
theorem v0_apply (k : Fin 2048) :
    Read.val_main_v0 (F := Ideal) x0 x1 (ix2 r k) = cat (rowOf x0 r) (rowOf x1 r) k := by
  unfold Read.val_main_v0
  exact concat_apply x0 x1 _ r k

/-- The row's total, from zero. -/
theorem v1_apply :
    Read.val_main_v1 (F := Ideal) x0 x1 (ix1 r) = wZero + ∑ k, cat (rowOf x0 r) (rowOf x1 r) k := by
  rw [Read.val_main_v1_apply]
  refine congrArg₂ (· + ·) rfl (Finset.sum_congr rfl fun k _ => ?_)
  rw [idx1]; exact v0_apply x0 x1 r k

/-- The total over 2048: the mean. -/
theorem v4_apply :
    Read.val_main_v4 (F := Ideal) x0 x1 (ix2 r (0 : Fin 1)) = meanC (cat (rowOf x0 r) (rowOf x1 r)) := by
  rw [Read.val_main_v4_apply, Read.val_main_v2_apply, idx2, v1_apply, Read.val_main_v3_apply]
  rfl

/-- The centred entry … -/
theorem v6_apply (k : Fin 2048) :
    Read.val_main_v6 (F := Ideal) x0 x1 (ix2 r k) = cat (rowOf x0 r) (rowOf x1 r) k - meanC (cat (rowOf x0 r) (rowOf x1 r)) := by
  rw [Read.val_main_v6_apply, Read.val_main_v5_apply, idx5, v4_apply, v0_apply]
  rfl

/-- … its square … -/
theorem v7_apply (k : Fin 2048) :
    Read.val_main_v7 (F := Ideal) x0 x1 (ix2 r k)
      = (cat (rowOf x0 r) (rowOf x1 r) k - meanC (cat (rowOf x0 r) (rowOf x1 r))) * (cat (rowOf x0 r) (rowOf x1 r) k - meanC (cat (rowOf x0 r) (rowOf x1 r))) := by
  rw [Read.val_main_v7_apply, v6_apply]
  rfl

/-- … the squares' total, from zero … -/
theorem v8_apply :
    Read.val_main_v8 (F := Ideal) x0 x1 (ix1 r)
      = wZero + ∑ k, (cat (rowOf x0 r) (rowOf x1 r) k - meanC (cat (rowOf x0 r) (rowOf x1 r))) * (cat (rowOf x0 r) (rowOf x1 r) k - meanC (cat (rowOf x0 r) (rowOf x1 r))) := by
  rw [Read.val_main_v8_apply]
  refine congrArg₂ (· + ·) rfl (Finset.sum_congr rfl fun k _ => ?_)
  rw [idx8]; exact v7_apply x0 x1 r k

/-- … over 2048: the variance … -/
theorem v11_apply :
    Read.val_main_v11 (F := Ideal) x0 x1 (ix2 r (0 : Fin 1))
      = Ideal.div (wZero + ∑ k, (cat (rowOf x0 r) (rowOf x1 r) k - meanC (cat (rowOf x0 r) (rowOf x1 r))) * (cat (rowOf x0 r) (rowOf x1 r) k - meanC (cat (rowOf x0 r) (rowOf x1 r)))) wN := by
  rw [Read.val_main_v11_apply, Read.val_main_v9_apply, idx9, v8_apply, Read.val_main_v10_apply]
  rfl

/-- … and the reciprocal square root of the variance plus the offset: the reciprocal deviation. -/
theorem v16_apply :
    Read.val_main_v16 (F := Ideal) x0 x1 (ix2 r (0 : Fin 1)) = istdC (cat (rowOf x0 r) (rowOf x1 r)) := by
  rw [Read.val_main_v16_apply, Read.val_main_v15_apply, v11_apply, Read.val_main_v14_apply]
  rfl

/-- The centred entry again (the program forms it a second time). -/
theorem v13_apply (k : Fin 2048) :
    Read.val_main_v13 (F := Ideal) x0 x1 (ix2 r k) = cat (rowOf x0 r) (rowOf x1 r) k - meanC (cat (rowOf x0 r) (rowOf x1 r)) := by
  rw [Read.val_main_v13_apply, Read.val_main_v12_apply, idx12, v4_apply, v0_apply]
  rfl

/-! ## The gate: normalised entries, contraction, bias, and the two logistic values -/

/-- The normalised entry: centred, scaled by the reciprocal deviation and the gain, shifted, masked. -/
theorem v27_apply (k : Fin 2048) :
    Read.val_main_v27 (F := Ideal) x0 x1 x6 x7 x10 (ix2 r k)
      = nrm (meanC (cat (rowOf x0 r) (rowOf x1 r))) (istdC (cat (rowOf x0 r) (rowOf x1 r))) (cat (rowOf x0 r) (rowOf x1 r) k) (x6 (ix1 k)) (x7 (ix1 k)) (x10 (ix1 k)) := by
  rw [Read.val_main_v27_apply, Read.val_main_v24_apply, Read.val_main_v21_apply, Read.val_main_v18_apply,
    v13_apply, Read.val_main_v17_apply, idx17, v16_apply, v20_at, v23_at, v26_at]
  rfl

/-- The contraction of the normalised row with column `j` of the gate's matrix. -/
theorem v28_apply (j : Fin 2048) :
    Read.val_main_v28 (F := Ideal) x0 x1 x2 x6 x7 x10 (ix2 r j)
      = ∑ k : Fin 2048, nrm (meanC (cat (rowOf x0 r) (rowOf x1 r))) (istdC (cat (rowOf x0 r) (rowOf x1 r))) (cat (rowOf x0 r) (rowOf x1 r) k) (x6 (ix1 k)) (x7 (ix1 k)) (x10 (ix1 k))
          * x2 (ix2 k j) := by
  rw [Read.val_main_v28_apply]
  refine Finset.sum_congr rfl fun k _ => ?_
  rw [lidx28, ridx28, v27_apply]

/-- Plus the bias: the gate's pre-activation `j`. -/
theorem v31_apply (j : Fin 2048) :
    Read.val_main_v31 (F := Ideal) x0 x1 x2 x3 x6 x7 x10 (ix2 r j) = gateC (wholeOf x2 x3 x4 x5 x6 x7 x8 x9 x10) (rowOf x0 r) (rowOf x1 r) j := by
  rw [Read.val_main_v31_apply, v28_apply, v30_at]
  rfl

/-- The logistic value `1 / (1 + e^(−·))` of the first half of the gate … -/
theorem v38_apply (q : Fin 1024) :
    Read.val_main_v38 (F := Ideal) x0 x1 x2 x3 x6 x7 x10 (ix2 r q) = sigC (gateC (wholeOf x2 x3 x4 x5 x6 x7 x8 x9 x10) (rowOf x0 r) (rowOf x1 r) (lo q)) := by
  rw [Read.val_main_v38_apply, Read.val_main_v37_apply, Read.val_main_cst_5_apply, Read.val_main_v36_apply,
    Read.val_main_v35_apply, Read.val_main_cst_4_apply, Read.val_main_v34_apply, Read.val_main_v33_apply,
    Read.val_main_v32_apply, idx32, v31_apply]
  rfl

/-- … and of the second half: the update gate. -/
theorem v45_apply (q : Fin 1024) :
    Read.val_main_v45 (F := Ideal) x0 x1 x2 x3 x6 x7 x10 (ix2 r q) = updC (wholeOf x2 x3 x4 x5 x6 x7 x8 x9 x10) (rowOf x0 r) (rowOf x1 r) q := by
  rw [Read.val_main_v45_apply, Read.val_main_v44_apply, Read.val_main_cst_7_apply, Read.val_main_v43_apply,
    Read.val_main_v42_apply, Read.val_main_cst_6_apply, Read.val_main_v41_apply, Read.val_main_v40_apply,
    Read.val_main_v39_apply, idx39, v31_apply]
  rfl

/-- The second half, reset: `h` times the first logistic value. -/
theorem v46_apply (q : Fin 1024) :
    Read.val_main_v46 (F := Ideal) x0 x1 x2 x3 x6 x7 x10 (ix2 r q) = resetC (wholeOf x2 x3 x4 x5 x6 x7 x8 x9 x10) (rowOf x0 r) (rowOf x1 r) q := by
  rw [Read.val_main_v46_apply, v38_apply]
  rfl

/-! ## The second statistics, over the join of `x` with the reset half -/

/-- The second join at `(r, k)` is entry `k` of the row joined with its reset half. -/
theorem v47_apply (k : Fin 2048) :
    Read.val_main_v47 (F := Ideal) x0 x1 x2 x3 x6 x7 x10 (ix2 r k) = cat (rowOf x0 r) (resetC (wholeOf x2 x3 x4 x5 x6 x7 x8 x9 x10) (rowOf x0 r) (rowOf x1 r)) k := by
  unfold Read.val_main_v47
  refine (concat_apply x0 _ _ r k).trans ?_
  exact congrArg (fun f => cat (rowOf x0 r) f k) (funext fun q => v46_apply x0 x1 x2 x3 x4 x5 x6 x7 x8 x9 x10 r q)

/-- The second total, from zero. -/
theorem v48_apply :
    Read.val_main_v48 (F := Ideal) x0 x1 x2 x3 x6 x7 x10 (ix1 r) = wZero + ∑ k, cat (rowOf x0 r) (resetC (wholeOf x2 x3 x4 x5 x6 x7 x8 x9 x10) (rowOf x0 r) (rowOf x1 r)) k := by
  rw [Read.val_main_v48_apply]
  refine congrArg₂ (· + ·) rfl (Finset.sum_congr rfl fun k _ => ?_)
  rw [idx48]; exact v47_apply x0 x1 x2 x3 x4 x5 x6 x7 x8 x9 x10 r k

/-- The second mean. -/
theorem v51_apply :
    Read.val_main_v51 (F := Ideal) x0 x1 x2 x3 x6 x7 x10 (ix2 r (0 : Fin 1)) = meanC (cat (rowOf x0 r) (resetC (wholeOf x2 x3 x4 x5 x6 x7 x8 x9 x10) (rowOf x0 r) (rowOf x1 r))) := by
  rw [Read.val_main_v51_apply, Read.val_main_v49_apply, idx49, v48_apply, Read.val_main_v50_apply]
  rfl

/-- The centred entry … -/
theorem v53_apply (k : Fin 2048) :
    Read.val_main_v53 (F := Ideal) x0 x1 x2 x3 x6 x7 x10 (ix2 r k) = cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r))) := by
  rw [Read.val_main_v53_apply, Read.val_main_v52_apply, idx52, v51_apply, v47_apply]
  rfl

/-- … its square … -/
theorem v54_apply (k : Fin 2048) :
    Read.val_main_v54 (F := Ideal) x0 x1 x2 x3 x6 x7 x10 (ix2 r k)
      = (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r)))) * (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r)))) := by
  rw [Read.val_main_v54_apply, v53_apply]
  rfl

/-- … the squares' total, from zero … -/
theorem v55_apply :
    Read.val_main_v55 (F := Ideal) x0 x1 x2 x3 x6 x7 x10 (ix1 r)
      = wZero + ∑ k, (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r)))) * (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r)))) := by
  rw [Read.val_main_v55_apply]
  refine congrArg₂ (· + ·) rfl (Finset.sum_congr rfl fun k _ => ?_)
  rw [idx55]; exact v54_apply x0 x1 x2 x3 x4 x5 x6 x7 x8 x9 x10 r k

/-- … over 2048: the second variance … -/
theorem v58_apply :
    Read.val_main_v58 (F := Ideal) x0 x1 x2 x3 x6 x7 x10 (ix2 r (0 : Fin 1))
      = Ideal.div (wZero + ∑ k, (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r)))) * (cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r))))) wN := by
  rw [Read.val_main_v58_apply, Read.val_main_v56_apply, idx56, v55_apply, Read.val_main_v57_apply]
  rfl

/-- … and the second reciprocal deviation. -/
theorem v63_apply :
    Read.val_main_v63 (F := Ideal) x0 x1 x2 x3 x6 x7 x10 (ix2 r (0 : Fin 1)) = istdC (cat (rowOf x0 r) (resetC (wholeOf x2 x3 x4 x5 x6 x7 x8 x9 x10) (rowOf x0 r) (rowOf x1 r))) := by
  rw [Read.val_main_v63_apply, Read.val_main_v62_apply, v58_apply, Read.val_main_v61_apply]
  rfl

/-- The centred entry again. -/
theorem v60_apply (k : Fin 2048) :
    Read.val_main_v60 (F := Ideal) x0 x1 x2 x3 x6 x7 x10 (ix2 r k) = cat (rowOf x0 r) (resetC (wholeOf x2 x3 x4 x5 x6 x7 x8 x9 x10) (rowOf x0 r) (rowOf x1 r)) k - meanC (cat (rowOf x0 r) (resetC (wholeOf x2 x3 x4 x5 x6 x7 x8 x9 x10) (rowOf x0 r) (rowOf x1 r))) := by
  rw [Read.val_main_v60_apply, Read.val_main_v59_apply, idx59, v51_apply, v47_apply]
  rfl

/-! ## The candidate and the result -/

/-- The second normalised entry, with the second gain and shift and the same mask. -/
theorem v74_apply (k : Fin 2048) :
    Read.val_main_v74 (F := Ideal) x0 x1 x2 x3 x6 x7 x8 x9 x10 (ix2 r k)
      = nrm (meanC (cat (rowOf x0 r) (resetC (wholeOf x2 x3 x4 x5 x6 x7 x8 x9 x10) (rowOf x0 r) (rowOf x1 r)))) (istdC (cat (rowOf x0 r) (resetC (wholeOf x2 x3 x4 x5 x6 x7 x8 x9 x10) (rowOf x0 r) (rowOf x1 r)))) (cat (rowOf x0 r) (resetC (wholeOf x2 x3 x4 x5 x6 x7 x8 x9 x10) (rowOf x0 r) (rowOf x1 r)) k) (x8 (ix1 k)) (x9 (ix1 k)) (x10 (ix1 k)) := by
  rw [Read.val_main_v74_apply, Read.val_main_v71_apply, Read.val_main_v68_apply, Read.val_main_v65_apply,
    v60_apply, Read.val_main_v64_apply, idx64, v63_apply, v67_at, v70_at, v73_at]
  rfl

/-- The contraction of the second normalised row with column `q` of the candidate's matrix. -/
theorem v75_apply (q : Fin 1024) :
    Read.val_main_v75 (F := Ideal) x0 x1 x2 x3 x4 x6 x7 x8 x9 x10 (ix2 r q)
      = ∑ k : Fin 2048, nrm (meanC (cat (rowOf x0 r) (resetC (wholeOf x2 x3 x4 x5 x6 x7 x8 x9 x10) (rowOf x0 r) (rowOf x1 r)))) (istdC (cat (rowOf x0 r) (resetC (wholeOf x2 x3 x4 x5 x6 x7 x8 x9 x10) (rowOf x0 r) (rowOf x1 r)))) (cat (rowOf x0 r) (resetC (wholeOf x2 x3 x4 x5 x6 x7 x8 x9 x10) (rowOf x0 r) (rowOf x1 r)) k) (x8 (ix1 k)) (x9 (ix1 k)) (x10 (ix1 k))
          * x4 (ix2 k q) := by
  rw [Read.val_main_v75_apply]
  refine Finset.sum_congr rfl fun k _ => ?_
  rw [lidx75, ridx75, v74_apply]

/-- Plus the bias: the candidate's pre-activation `q`. -/
theorem v78_apply (q : Fin 1024) :
    Read.val_main_v78 (F := Ideal) x0 x1 x2 x3 x4 x5 x6 x7 x8 x9 x10 (ix2 r q) = candC (wholeOf x2 x3 x4 x5 x6 x7 x8 x9 x10) (rowOf x0 r) (resetC (wholeOf x2 x3 x4 x5 x6 x7 x8 x9 x10) (rowOf x0 r) (rowOf x1 r)) q := by
  rw [Read.val_main_v78_apply, v75_apply, v77_at]
  rfl

/-- The result: `h · z + (1 − z) · tanh (candidate)`, `z` the update gate. -/
theorem v84_apply (q : Fin 1024) :
    Read.val_main_v84 (F := Ideal) x0 x1 x2 x3 x4 x5 x6 x7 x8 x9 x10 (ix2 r q) = rowC (wholeOf x2 x3 x4 x5 x6 x7 x8 x9 x10) (rowOf x0 r) (rowOf x1 r) q := by
  rw [Read.val_main_v84_apply, Read.val_main_v80_apply, Read.val_main_v83_apply, Read.val_main_v82_apply,
    Read.val_main_v81_apply, Read.val_main_cst_13_apply, Read.val_main_v79_apply, v78_apply, v45_apply]
  rfl

end

/-- THE REFERENCE AT AN INDEX: entry `(r, q)` of the reference program's result is the joined arrangement's row
    function of row `r` of `x` and of `h` and of the parameters, at `q`. -/
theorem result_apply (x0 x1 : (⟨S16384x1024, .f32⟩ : BufTy).Contents (Elt Ideal)) (x2 : (⟨S2048x2048, .f32⟩ : BufTy).Contents (Elt Ideal))
    (x3 : (⟨S2048, .f32⟩ : BufTy).Contents (Elt Ideal)) (x4 : (⟨S2048x1024, .f32⟩ : BufTy).Contents (Elt Ideal)) (x5 : (⟨S1024, .f32⟩ : BufTy).Contents (Elt Ideal))
    (x6 x7 x8 x9 x10 : (⟨S2048, .f32⟩ : BufTy).Contents (Elt Ideal)) (r : Fin 16384) (q : Fin 1024) :
    Cert.ReferenceIdeal.Read.val_main_v84 (F := Ideal) x0 x1 x2 x3 x4 x5 x6 x7 x8 x9 x10 (ix2 r q)
      = Cert.GatedRow.outC x0 x1 (Cert.GatedRow.wholeOf x2 x3 x4 x5 x6 x7 x8 x9 x10) r q :=
  v84_apply x0 x1 x2 x3 x4 x5 x6 x7 x8 x9 x10 r q

end Cert.ReferenceIdeal.RefValue

end
-- ==== Proof.Finite.lean ====
/-
  FINITE INPUTS ARE REAL NUMBERS.

  At the ideal instance a float is an extended real: a point of ℝ ∪ {⊥, ⊤}. The precondition of the certificate says
  that every entry x of every float input satisfies |x| < +∞, where |x| is max x (-x) and +∞ is the value of the
  f32 pattern 0x7F800000. The eleven per-array statements "all entries satisfy it" are joined by a left-nested
  conjunction of one-bit words, the two arrays of shape 16384 × 1024 innermost.

  This module reads that conjunction back for those two arrays:
    • the pattern 0x7F800000 denotes ⊤;
    • on the extended reals, max x (-x) < ⊤ excludes x = ⊤ (then max = ⊤) and x = ⊥ (then -x = ⊤), so x is the
      image of a real number;
    • a conjunction (bitwise and) of one-bit words equal to 1 has both of its arguments equal to 1, and a
      reduction by and over all axes equal to 1 has every element equal to 1.
-/
import proofs.«127600_j25391846654706_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.FiniteInputs

open Cert.Pre_finite_inputs

/-- A shape of rank 0 has exactly one index: the empty tuple of coordinates. -/
instance subsingleton_scalarIdx : Subsingleton S_.Idx := ⟨fun a b => funext fun d => d.elim0⟩

/-- The f32 pattern with sign 0, all-ones exponent and zero significand denotes +∞. -/
theorem ofBits_inf : Ideal.ofBits .f32 0x7F800000#32 = ⊤ := by
  simp [Ideal.ofBits, Ideal.ieee]

/-- An extended real whose absolute value max x (-x) lies strictly below ⊤ is a real number:
    at x = ⊥ the maximum is -⊥ = ⊤, at x = ⊤ it is ⊤ itself, and neither is below ⊤. -/
theorem real_of_abs_lt_top (x : EReal) (h : max x (-x) < ⊤) : ∃ t : ℝ, x = (t : EReal) := by
  induction x using EReal.rec with
  | bot => simp at h
  | coe r => exact ⟨r, rfl⟩
  | top => simp at h

/-- The one-bit word of a truth value is 1 only for the value true. -/
theorem ofBool_eq_one {b : Bool} (h : BitVec.ofBool b = 1#1) : b = true := by
  cases b
  · exact absurd h (by decide)
  · rfl

/-- One array of shape 16384 × 1024: if the conjunction over ALL its entries of "|x i| < +∞" is 1, then every entry
    is a real number. The reduction by and being 1 gives the comparison word 1 at each index i; that word is the
    truth value of max (x i) (-(x i)) < (the value of 0x7F800000) = ⊤. -/
theorem real_of_all [Facts] (x : FVec Ideal S16384x1024 .f32)
    (h : Host.reduce IntOp.andi
        (cmpf .olt (Host.absf x)
          (broadcastInDim S16384x1024 ![] Facts.bcast_S_S16384x1024 (constant (F := Ideal) S_ .f32 0x7F800000#32)))
        (constantI S_ 1 1#1) Facts.reducesTo_S16384x1024_S_d0_1 Facts.h_S_ ValueIdx.ix0 = 1#1) :
    ∀ i, ∃ t : ℝ, x i = (t : EReal) := by
  intro i
  have e := Host.reduce_andi_all _ _ _ _ _ h i
  apply real_of_abs_lt_top
  -- at index i the comparison reads |x i| on the left and the broadcast scalar +∞ on the right
  have e2 : Ideal.cmp .olt (max (x i) (-(x i))) (Ideal.ofBits .f32 0x7F800000#32) = 1#1 := e
  rw [ofBits_inf] at e2
  exact of_decide_eq_true (ofBool_eq_one e2)

/-- The precondition "every float input is finite", evaluated to 1, makes every entry of the first two inputs a real
    number. The result has rank 0, so the hypothesis is one equation between one-bit words: a ten-fold left-nested
    conjunction of the eleven per-array words. Taking the left argument nine times reaches the conjunction of the
    words of the first two arrays; each of them being 1 is the hypothesis of `real_of_all`. -/
theorem real_of_finite [Cert.Pre_finite_inputs.Facts]
    (x0 x1 : FVec Ideal Cert.Pre_finite_inputs.S16384x1024 .f32) (x2 : FVec Ideal Cert.Pre_finite_inputs.S2048x2048 .f32)
    (x3 : FVec Ideal Cert.Pre_finite_inputs.S2048 .f32) (x4 : FVec Ideal Cert.Pre_finite_inputs.S2048x1024 .f32)
    (x5 : FVec Ideal Cert.Pre_finite_inputs.S1024 .f32) (x6 x7 x8 x9 x10 : FVec Ideal Cert.Pre_finite_inputs.S2048 .f32)
    (h : Cert.Pre_finite_inputs.fn (F := Ideal) x0 x1 x2 x3 x4 x5 x6 x7 x8 x9 x10 = fun _ => 1#1) :
    (∀ i, ∃ t : ℝ, x0 i = (t : EReal)) ∧ (∀ i, ∃ t : ℝ, x1 i = (t : EReal)) := by
  have h0 := congrFun h ValueIdx.ix0
  dsimp only [fn, fn_part1, fn_part2, fn_part3, andi] at h0
  -- h0 : w0 ∧ w1 ∧ … ∧ w10 = 1 (left-nested, w0 ∧ w1 innermost); drop w10, w9, …, w2 in turn
  have p1 := (IntOp.andi_eq_one.1 h0).1
  have p2 := (IntOp.andi_eq_one.1 p1).1
  have p3 := (IntOp.andi_eq_one.1 p2).1
  have p4 := (IntOp.andi_eq_one.1 p3).1
  have p5 := (IntOp.andi_eq_one.1 p4).1
  have p6 := (IntOp.andi_eq_one.1 p5).1
  have p7 := (IntOp.andi_eq_one.1 p6).1
  have p8 := (IntOp.andi_eq_one.1 p7).1
  have p9 := (IntOp.andi_eq_one.1 p8).1
  obtain ⟨a, b⟩ := IntOp.andi_eq_one.1 p9
  exact ⟨real_of_all x0 a, real_of_all x1 b⟩

end Cert.FiniteInputs
-- ==== Proof.lean ====
/-
  The certificate of a gated recurrent update: a fused kernel against its array-level reference.

  Both programs compute, for each of the 16384 rows of `x` and `h` (1024 entries each), a layer normalisation of the
  2048-entry vector (x, h), a linear map to 2048 gate pre-activations, two logistic gates `r` and `z`, a second layer
  normalisation of (x, h·r), a linear map and tanh to a candidate `u`, and the result `h·z + (1 − z)·u`.
  The reference forms the 2048-entry vectors, divides by 2048 and takes the variance as the mean of squared centred
  entries. The kernel works on blocks of 256 rows, in two runs of 128; it never joins `x` and `h` — every sum over the
  2048 entries is two sums over 1024 —, multiplies by 2⁻¹¹, takes the variance as E[v²] − E[v]², feeds the matrix units
  through a narrower float format, and applies the logistic function as one operation.

  On the extended reals a change of float format is the identity, the one-operation logistic is 1 / (1 + e^(−x)) by
  definition, splitting a sum and x / 2048 = x · 2⁻¹¹ hold everywhere, and E[(v − μ)²] = E[v²] − μ² holds for real
  entries. The precondition makes the entries of `x` and `h` real, and h·r is real because a logistic value is. So the
  two results are one array (RowSpec.lean, Params.lean: the row function and the law; KernelRow0/1.lean, Block.lean,
  ArrayValue.lean: the kernel's array is that function; RefRow.lean: so is the reference's; Finite.lean: the inputs are
  real). Nothing was rewritten when the kernel was read over the extended reals, so that reading is the kernel's own
  text; each program runs to the end without a fault and leaves its arguments as they were.
-/
import proofs.«127600_j25391846654706_2_alg».proof.Defs
import proofs.«127600_j25391846654706_2_alg».proof.Proof.Gen.Kernel
import proofs.«127600_j25391846654706_2_alg».proof.Proof.Gen.Kernel.Skeleton
import proofs.«127600_j25391846654706_2_alg».proof.Proof.Gen.Kernel.Launch
import proofs.«127600_j25391846654706_2_alg».proof.Proof.Gen.Kernel.Points
import proofs.«127600_j25391846654706_2_alg».proof.Proof.Gen.Kernel.Frame
import proofs.«127600_j25391846654706_2_alg».proof.Proof.Gen.KernelIdeal
import proofs.«127600_j25391846654706_2_alg».proof.Proof.Gen.KernelIdeal.Skeleton
import proofs.«127600_j25391846654706_2_alg».proof.Proof.Gen.KernelIdeal.Launch
import proofs.«127600_j25391846654706_2_alg».proof.Proof.Gen.KernelIdeal.Points
import proofs.«127600_j25391846654706_2_alg».proof.Proof.Gen.KernelIdeal.Frame
import proofs.«127600_j25391846654706_2_alg».proof.Proof.Gen.ReferenceIdeal
import proofs.«127600_j25391846654706_2_alg».proof.Proof.Gen.Pre_finite_inputs
import proofs.«127600_j25391846654706_2_alg».proof.Proof.Gen.KernelIdeal.Value
import proofs.«127600_j25391846654706_2_alg».proof.Proof.Gen.ReferenceIdeal.Run
import proofs.«127600_j25391846654706_2_alg».proof.Proof.Gen.ReferenceIdeal.Read
import proofs.«127600_j25391846654706_2_alg».proof.Proof.ArrayValue
import proofs.«127600_j25391846654706_2_alg».proof.Proof.RefRow
import proofs.«127600_j25391846654706_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end, faults nowhere and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the eleven arguments, the kernel's result array and the
    reference's are one array: the kernel's is the row function in its split arrangement of each row (ArrayValue.lean),
    the reference's the same function in its joined arrangement (RefRow.lean), and on the real entries the precondition
    gives (Finite.lean) the two arrangements agree (Params.lean). -/
theorem algebraic : Cert.algebraic_KernelIdeal_ReferenceIdeal := by
  intro m ρ m' ρ' hpre hagree
  refine ⟨fun c => Cert.KernelIdeal.ArrayValue.kernelOut m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v84_eq, h0, h1, h2, h3, h4, h5, h6, h7, h8, h9, h10]
  have hreal := Cert.FiniteInputs.real_of_finite _ _ _ _ _ _ _ _ _ _ _ (hpre c)
  funext i
  obtain ⟨r, q, rfl⟩ : ∃ (r : Fin 16384) (q : Fin 1024), i = ix2 r q := ⟨i 0, i 1, eq_ix2 (n0 := 16384) (n1 := 1024) i⟩
  rw [Cert.ReferenceIdeal.RefValue.result_apply]
  exact Cert.GatedRow.outC_eq_outS _ _ _ hreal.1 hreal.2 r q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
